-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1000x64 : Shape := ⟨2, ![1000, 64]⟩
abbrev S1000 : Shape := ⟨1, ![1000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1000x64 : S_.BroadcastsInDim S1000x64 (![] : Fin 0 → Fin S1000x64.rank)
  reducesTo_S1000x64_S_d0_1 : S1000x64.ReducesTo [0, 1] S_
  bcast_S_S1000 : S_.BroadcastsInDim S1000 (![] : Fin 0 → Fin S1000.rank)
  reducesTo_S1000_S_d0 : S1000.ReducesTo [0] S_

variable [Facts]

def fn_part2 {F : FTy → Type} [FloatOps F] (main_arg8 : FVec F S1000x64 .f32) (main_arg9 : FVec F S1000 .f32) (main_v33 : IVec S_ 1) : IVec S_ 1 :=
  let main_v34 : FVec F S1000x64 .f32 := Host.absf main_arg8
  let main_cst_12 : FVec F S_ .f32 := constant S_ .f32 0x7F800000#32
  let main_v35 : FVec F S1000x64 .f32 := broadcastInDim S1000x64 ![] bcast_S_S1000x64 main_cst_12
  let main_v36 : IVec S1000x64 1 := cmpf .olt main_v34 main_v35
  let main_c_13 : IVec S_ 1 := constantI S_ 1 1#1
  let main_v37 : IVec S_ 1 := (fun x v => Host.reduce IntOp.andi x v reducesTo_S1000x64_S_d0_1 h_S_) main_v36 main_c_13
  let main_v38 : IVec S_ 1 := andi main_v33 main_v37
  let main_v39 : FVec F S1000 .f32 := Host.absf main_arg9
  let main_cst_14 : FVec F S_ .f32 := constant S_ .f32 0x7F800000#32
  let main_v40 : FVec F S1000 .f32 := broadcastInDim S1000 ![] bcast_S_S1000 main_cst_14
  let main_v41 : IVec S1000 1 := cmpf .olt main_v39 main_v40
  let main_c_15 : IVec S_ 1 := constantI S_ 1 1#1
  let main_v42 : IVec S_ 1 := (fun x v => Host.reduce IntOp.andi x v reducesTo_S1000_S_d0 h_S_) main_v41 main_c_15
  let main_v43 : IVec S_ 1 := andi main_v38 main_v42
  main_v43

def fn_part1 {F : FTy → Type} [FloatOps F] (main_arg5 : FVec F S64x64 .f32) (main_arg6 : FVec F S64 .f32) (main_arg7 : FVec F S64x64 .f32) (main_arg8 : FVec F S1000x64 .f32) (main_arg9 : FVec F S1000 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64x64 .f32) (main_arg6 : FVec F S64 .f32) (main_arg7 : FVec F S64x64 .f32) (main_arg8 : FVec F S1000x64 .f32) (main_arg9 : FVec F S1000 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1000x64 : Shape := ⟨2, ![1000, 64]⟩
abbrev S1000 : Shape := ⟨1, ![1000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S1600000x64 : Shape := ⟨2, ![1600000, 64]⟩
abbrev S4000x64 : Shape := ⟨2, ![4000, 64]⟩
abbrev S4000x1 : Shape := ⟨2, ![4000, 1]⟩
abbrev S1x64 : Shape := ⟨2, ![1, 64]⟩
abbrev S64x1000 : Shape := ⟨2, ![64, 1000]⟩
abbrev S100000x1000 : Shape := ⟨2, ![100000, 1000]⟩
abbrev S1000x1 : Shape := ⟨2, ![1000, 1]⟩
abbrev S1000x1000 : Shape := ⟨2, ![1000, 1000]⟩
abbrev S1x1000 : Shape := ⟨2, ![1, 1000]⟩

abbrev nBuf : Space → Nat
  | .hbm => 64
  | .vmem => 24
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1000x64, .f32⟩
  | .hbm, ⟨9, _⟩ => ⟨S1000, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .f32⟩
  | .hbm, ⟨15, _⟩ => ⟨S1600000x1, .f32⟩
  | .hbm, ⟨16, _⟩ => ⟨S_, .f32⟩
  | .hbm, ⟨17, _⟩ => ⟨S100000x1, .f32⟩
  | .hbm, ⟨18, _⟩ => ⟨S1600000x1, .i32⟩
  | .hbm, ⟨19, _⟩ => ⟨S100000x1, .f32⟩
  | .hbm, ⟨20, _⟩ => ⟨S_, .f32⟩
  | .hbm, ⟨21, _⟩ => ⟨S100000x1, .f32⟩
  | .hbm, ⟨22, _⟩ => ⟨S100000x1, .f32⟩
  | .hbm, ⟨23, _⟩ => ⟨S_, .f32⟩
  | .hbm, ⟨24, _⟩ => ⟨S100000x1, .f32⟩
  | .hbm, ⟨25, _⟩ => ⟨S100000x1, .f32⟩
  | .hbm, ⟨26, _⟩ => ⟨S_, .i32⟩
  | .hbm, ⟨27, _⟩ => ⟨S1600000, .i32⟩
  | .hbm, ⟨28, _⟩ => ⟨S1600000, .i1⟩
  | .hbm, ⟨29, _⟩ => ⟨S_, .i32⟩
  | .hbm, ⟨30, _⟩ => ⟨S1600000, .i32⟩
  | .hbm, ⟨31, _⟩ => ⟨S1600000, .i32⟩
  | .hbm, ⟨32, _⟩ => ⟨S1600000, .i32⟩
  | .hbm, ⟨33, _⟩ => ⟨S1600000x1, .i32⟩
  | .hbm, ⟨34, _⟩ => ⟨S1600000x64, .f32⟩
  | .hbm, ⟨35, _⟩ => ⟨S_, .f32⟩
  | .hbm, ⟨36, _⟩ => ⟨S100000x64, .f32⟩
  | .hbm, ⟨37, _⟩ => ⟨S1600000x1, .i32⟩
  | .hbm, ⟨38, _⟩ => ⟨S100000x64, .f32⟩
  | .hbm, ⟨39, _⟩ => ⟨S64x64, .f32⟩
  | .hbm, ⟨40, _⟩ => ⟨S64x64, .bf16⟩
  | .hbm, ⟨41, _⟩ => ⟨S64x64, .f32⟩
  | .hbm, ⟨42, _⟩ => ⟨S64x64, .bf16⟩
  | .hbm, ⟨43, _⟩ => ⟨S100000x64, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .f32⟩
  | .hbm, ⟨53, _⟩ => ⟨S_, .f32⟩
  | .hbm, ⟨54, _⟩ => ⟨S100000x64, .f32⟩
  | .hbm, ⟨55, _⟩ => ⟨S1600000x1, .i32⟩
  | .hbm, ⟨56, _⟩ => ⟨S100000x64, .f32⟩
  | .hbm, ⟨57, _⟩ => ⟨S64x64, .f32⟩
  | .hbm, ⟨58, _⟩ => ⟨S64x64, .bf16⟩
  | .hbm, ⟨59, _⟩ => ⟨S64x64, .f32⟩
  | .hbm, ⟨60, _⟩ => ⟨S64x64, .bf16⟩
  | .hbm, ⟨61, _⟩ => ⟨S64x1000, .f32⟩
  | .hbm, ⟨62, _⟩ => ⟨S64x1000, .bf16⟩
  | .hbm, ⟨63, _⟩ => ⟨S100000x1000, .f32⟩
  | .local _ .vmem, ⟨0, _⟩ => ⟨S4000x64, .f32⟩
  | .local _ .vmem, ⟨1, _⟩ => ⟨S4000x64, .f32⟩
  | .local _ .vmem, ⟨2, _⟩ => ⟨S4000x1, .f32⟩
  | .local _ .vmem, ⟨3, _⟩ => ⟨S4000x1, .f32⟩
  | .local _ .vmem, ⟨4, _⟩ => ⟨S4000x64, .f32⟩
  | .local _ .vmem, ⟨5, _⟩ => ⟨S4000x64, .f32⟩
  | .local _ .vmem, ⟨6, _⟩ => ⟨S64x64, .bf16⟩
  | .local _ .vmem, ⟨7, _⟩ => ⟨S64, .f32⟩
  | .local _ .vmem, ⟨8, _⟩ => ⟨S64x64, .bf16⟩
  | .local _ .vmem, ⟨9, _⟩ => ⟨S4000x64, .f32⟩
  | .local _ .vmem, ⟨10, _⟩ => ⟨S4000x64, .f32⟩
  | .local _ .vmem, ⟨11, _⟩ => ⟨S1000x64, .f32⟩
  | .local _ .vmem, ⟨12, _⟩ => ⟨S1000x64, .f32⟩
  | .local _ .vmem, ⟨13, _⟩ => ⟨S1000x1, .f32⟩
  | .local _ .vmem, ⟨14, _⟩ => ⟨S1000x1, .f32⟩
  | .local _ .vmem, ⟨15, _⟩ => ⟨S1000x64, .f32⟩
  | .local _ .vmem, ⟨16, _⟩ => ⟨S1000x64, .f32⟩
  | .local _ .vmem, ⟨17, _⟩ => ⟨S64x64, .bf16⟩
  | .local _ .vmem, ⟨18, _⟩ => ⟨S64, .f32⟩
  | .local _ .vmem, ⟨19, _⟩ => ⟨S64x64, .bf16⟩
  | .local _ .vmem, ⟨20, _⟩ => ⟨S64x1000, .bf16⟩
  | .local _ .vmem, ⟨21, _⟩ => ⟨S1000, .f32⟩
  | .local _ .vmem, ⟨22, _⟩ => ⟨S1000x1000, .f32⟩
  | .local _ .vmem, ⟨23, _⟩ => ⟨S1000x1000, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_3 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_c_5 : Ref sig .tc := ⟨.hbm, 44, rfl⟩
abbrev main_v27 : Ref sig .tc := ⟨.hbm, 45, rfl⟩
abbrev main_v28 : Ref sig .tc := ⟨.hbm, 46, rfl⟩
abbrev main_c_6 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_7 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg8_0 : Ref sig .tc := ⟨.vmem, 22, rfl⟩
abbrev cc1_stg8_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem8_0 : DmaSem sig := 22
abbrev cc1_sem8_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x1000 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1000 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1000x1000 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x64 : S_.BroadcastsInDim S100000x64 (![] : Fin 0 → Fin S100000x64.rank)
  transposes_S64x64_S64x64_1_0 : S64x64.Transposes [1, 0] S64x64
  bitsLt_bf16_f32 : FTy.bits .bf16 < FTy.bits .f32
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x64 : S4000x1.Broadcasts S4000x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S4000x64 : S1x64.Broadcasts S4000x64
  transposes_S1000x64_S64x1000_1_0 : S1000x64.Transposes [1, 0] S64x1000
  inb_S1000x64_S1000x64_0_0 : ∀ a, (![0, 0] : Fin 2 → Nat) a + S1000x64.size a ≤ S1000x64.size a
  h_S1000x64 : 0 < S1000x64.numel
  shapeCasts_S1000x64_S1000x64 : S1000x64.ShapeCasts S1000x64
  inb_S1000x1_S1000x1_0_0 : ∀ a, (![0, 0] : Fin 2 → Nat) a + S1000x1.size a ≤ S1000x1.size a
  h_S1000x1 : 0 < S1000x1.numel
  shapeCasts_S1000x1_S1000x1 : S1000x1.ShapeCasts S1000x1
  broadcasts_S1000x1_S1000x64 : S1000x1.Broadcasts S1000x64
  broadcasts_S1x64_S1000x64 : S1x64.Broadcasts S1000x64
  inb_S64x1000_S64x1000_0_0 : ∀ a, (![0, 0] : Fin 2 → Nat) a + S64x1000.size a ≤ S64x1000.size a
  h_S64x1000 : 0 < S64x1000.numel
  shapeCasts_S64x1000_S64x1000 : S64x1000.ShapeCasts S64x1000
  inb_S1000_S1000_0 : ∀ a, (![0] : Fin 1 → Nat) a + S1000.size a ≤ S1000.size a
  h_S1000 : 0 < S1000.numel
  shapeCasts_S1000_S1x1000 : S1000.ShapeCasts S1x1000
  broadcasts_S1x1000_S1000x1000 : S1x1000.Broadcasts S1000x1000
  inb_S1000x1000_S1000x1000_0_0 : ∀ a, (![0, 0] : Fin 2 → Nat) a + S1000x1000.size a ≤ S1000x1000.size a
  h_S1000x1000 : 0 < S1000x1000.numel
  scatter_S100000x1_S1600000x1_S1600000x1_1_0_0_1_wf : ScatterDims.WF S100000x1 S1600000x1 S1600000x1 [1] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S4000x64_S64x64_S4000x64_1_0_0_1_n_n_wf : DotDims.WF S4000x64 S64x64 S4000x64 [1] [0] [0] [1] [] []
  dot_S1000x64_S64x64_S1000x64_1_0_0_1_n_n_wf : DotDims.WF S1000x64 S64x64 S1000x64 [1] [0] [0] [1] [] []
  dot_S1000x64_S64x1000_S1000x1000_1_0_0_1_n_n_wf : DotDims.WF S1000x64 S64x1000 S1000x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S100000x64.size a
  hwx0_0 : ∀ i : grid0.Coords, EltTy.bits .f32 = 32 ∨ (Rect.block (s := S100000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x64.size a ≤ S100000x64.size a
  hwx0_2 : ∀ i : grid0.Coords, EltTy.bits .f32 = 32 ∨ (Rect.block (s := S100000x64) S4000x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .bf16 = 32 ∨ (Rect.block (s := S64x64) S64x64.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x64.size a ≤ S100000x64.size a
  hwx0_6 : ∀ i : grid0.Coords, EltTy.bits .f32 = 32 ∨ (Rect.block (s := S100000x64) S4000x64.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x64.size a ≤ S100000x64.size a
  hwx1_0 : ∀ i : grid1.Coords, EltTy.bits .f32 = 32 ∨ (Rect.block (s := S100000x64) S1000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1000x1.size a ≤ S100000x1.size a
  hwx1_1 : ∀ i : grid1.Coords, EltTy.bits .f32 = 32 ∨ (Rect.block (s := S100000x1) S1000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1000x64.size a ≤ S100000x64.size a
  hwx1_2 : ∀ i : grid1.Coords, EltTy.bits .f32 = 32 ∨ (Rect.block (s := S100000x64) S1000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .bf16 = 32 ∨ (Rect.block (s := S64x64) S64x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .bf16 = 32 ∨ (Rect.block (s := S64x64) S64x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x1000.size a ≤ S64x1000.size a
  hwx1_6 : ∀ i : grid1.Coords, EltTy.bits .bf16 = 32 ∨ (Rect.block (s := S64x1000) S64x1000.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1000.size a ≤ S1000.size a
  hwx1_7 : ∀ i : grid1.Coords, EltTy.bits .f32 = 32 ∨ (Rect.block (s := S1000) S1000.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S1000x1000.size a ≤ S100000x1000.size a
  hwx1_8 : ∀ i : grid1.Coords, EltTy.bits .f32 = 32 ∨ (Rect.block (s := S100000x1000) S1000x1000.size (cc1_transform_8 i) (hinb1_8 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S4000x64_S64x64_S4000x64_1_0_0_1_n_n : DotDims S4000x64 S64x64 S4000x64 where
  lhsContracting := [1]
  rhsContracting := [0]
  lhsNonContracting := [0]
  rhsNonContracting := [1]
  lhsBatch := []
  rhsBatch := []
  wf := dot_S4000x64_S64x64_S4000x64_1_0_0_1_n_n_wf
def dot_S1000x64_S64x64_S1000x64_1_0_0_1_n_n : DotDims S1000x64 S64x64 S1000x64 where
  lhsContracting := [1]
  rhsContracting := [0]
  lhsNonContracting := [0]
  rhsNonContracting := [1]
  lhsBatch := []
  rhsBatch := []
  wf := dot_S1000x64_S64x64_S1000x64_1_0_0_1_n_n_wf
def dot_S1000x64_S64x1000_S1000x1000_1_0_0_1_n_n : DotDims S1000x64 S64x1000 S1000x1000 where
  lhsContracting := [1]
  rhsContracting := [0]
  lhsNonContracting := [0]
  rhsNonContracting := [1]
  lhsBatch := []
  rhsBatch := []
  wf := dot_S1000x64_S64x1000_S1000x1000_1_0_0_1_n_n_wf

abbrev win0_0 : Pipeline.Window sig grid0 :=
  Pipeline.Window.ofSpec (Memref.whole main_v21) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v11) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S4000x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v26) S4000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S1000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v26) S1000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v38) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v40) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v42) S64x1000.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S1000.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v43) S1000x1000.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S1000x64 : Shape := ⟨2, ![1000, 64]⟩
abbrev S1000 : Shape := ⟨1, ![1000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S64x1000 : Shape := ⟨2, ![64, 1000]⟩
abbrev S100000x1000 : Shape := ⟨2, ![100000, 1000]⟩
abbrev S1x1000 : Shape := ⟨2, ![1, 1000]⟩

abbrev nBuf : Space → Nat
  | .hbm => 89
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64x64, .f32⟩
  | .hbm, ⟨6, _⟩ => ⟨S64, .f32⟩
  | .hbm, ⟨7, _⟩ => ⟨S64x64, .f32⟩
  | .hbm, ⟨8, _⟩ => ⟨S1000x64, .f32⟩
  | .hbm, ⟨9, _⟩ => ⟨S1000, .f32⟩
  | .hbm, ⟨10, _⟩ => ⟨S1x1600000, .i32⟩
  | .hbm, ⟨11, _⟩ => ⟨S1600000, .i32⟩
  | .hbm, ⟨12, _⟩ => ⟨S1x1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x64, .f32⟩
  | .hbm, ⟨23, _⟩ => ⟨S_, .f32⟩
  | .hbm, ⟨24, _⟩ => ⟨S100000x64, .f32⟩
  | .hbm, ⟨25, _⟩ => ⟨S1600000x1, .i32⟩
  | .hbm, ⟨26, _⟩ => ⟨S100000x64, .f32⟩
  | .hbm, ⟨27, _⟩ => ⟨S_, .f32⟩
  | .hbm, ⟨28, _⟩ => ⟨S1600000x1, .f32⟩
  | .hbm, ⟨29, _⟩ => ⟨S_, .f32⟩
  | .hbm, ⟨30, _⟩ => ⟨S100000x1, .f32⟩
  | .hbm, ⟨31, _⟩ => ⟨S1600000x1, .i32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S100000x64, .f32⟩
  | .hbm, ⟨37, _⟩ => ⟨S100000x64, .f32⟩
  | .hbm, ⟨38, _⟩ => ⟨S64x64, .f32⟩
  | .hbm, ⟨39, _⟩ => ⟨S100000x64, .f32⟩
  | .hbm, ⟨40, _⟩ => ⟨S1x64, .f32⟩
  | .hbm, ⟨41, _⟩ => ⟨S100000x64, .f32⟩
  | .hbm, ⟨42, _⟩ => ⟨S100000x64, .f32⟩
  | .hbm, ⟨43, _⟩ => ⟨S64x64, .f32⟩
  | .hbm, ⟨44, _⟩ => ⟨S100000x64, .f32⟩
  | .hbm, ⟨45, _⟩ => ⟨S100000x64, .f32⟩
  | .hbm, ⟨46, _⟩ => ⟨S_, .f32⟩
  | .hbm, ⟨47, _⟩ => ⟨S100000x64, .f32⟩
  | .hbm, ⟨48, _⟩ => ⟨S100000x64, .f32⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x64, .f32⟩
  | .hbm, ⟨58, _⟩ => ⟨S_, .f32⟩
  | .hbm, ⟨59, _⟩ => ⟨S100000x64, .f32⟩
  | .hbm, ⟨60, _⟩ => ⟨S1600000x1, .i32⟩
  | .hbm, ⟨61, _⟩ => ⟨S100000x64, .f32⟩
  | .hbm, ⟨62, _⟩ => ⟨S_, .f32⟩
  | .hbm, ⟨63, _⟩ => ⟨S1600000x1, .f32⟩
  | .hbm, ⟨64, _⟩ => ⟨S_, .f32⟩
  | .hbm, ⟨65, _⟩ => ⟨S100000x1, .f32⟩
  | .hbm, ⟨66, _⟩ => ⟨S1600000x1, .i32⟩
  | .hbm, ⟨67, _⟩ => ⟨S100000x1, .f32⟩
  | .hbm, ⟨68, _⟩ => ⟨S_, .f32⟩
  | .hbm, ⟨69, _⟩ => ⟨S100000x1, .f32⟩
  | .hbm, ⟨70, _⟩ => ⟨S100000x1, .f32⟩
  | .hbm, ⟨71, _⟩ => ⟨S100000x64, .f32⟩
  | .hbm, ⟨72, _⟩ => ⟨S100000x64, .f32⟩
  | .hbm, ⟨73, _⟩ => ⟨S64x64, .f32⟩
  | .hbm, ⟨74, _⟩ => ⟨S100000x64, .f32⟩
  | .hbm, ⟨75, _⟩ => ⟨S1x64, .f32⟩
  | .hbm, ⟨76, _⟩ => ⟨S100000x64, .f32⟩
  | .hbm, ⟨77, _⟩ => ⟨S100000x64, .f32⟩
  | .hbm, ⟨78, _⟩ => ⟨S64x64, .f32⟩
  | .hbm, ⟨79, _⟩ => ⟨S100000x64, .f32⟩
  | .hbm, ⟨80, _⟩ => ⟨S100000x64, .f32⟩
  | .hbm, ⟨81, _⟩ => ⟨S_, .f32⟩
  | .hbm, ⟨82, _⟩ => ⟨S100000x64, .f32⟩
  | .hbm, ⟨83, _⟩ => ⟨S100000x64, .f32⟩
  | .hbm, ⟨84, _⟩ => ⟨S64x1000, .f32⟩
  | .hbm, ⟨85, _⟩ => ⟨S100000x1000, .f32⟩
  | .hbm, ⟨86, _⟩ => ⟨S1x1000, .f32⟩
  | .hbm, ⟨87, _⟩ => ⟨S100000x1000, .f32⟩
  | .hbm, ⟨88, _⟩ => ⟨S100000x1000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_call0_cst : Ref sig .tc := ⟨.hbm, 46, rfl⟩
abbrev main_call0_v0 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_7 : Ref sig .tc := ⟨.hbm, 62, rfl⟩
abbrev main_v41 : Ref sig .tc := ⟨.hbm, 63, rfl⟩
abbrev main_cst_8 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_call1_cst : Ref sig .tc := ⟨.hbm, 81, rfl⟩
abbrev main_call1_v0 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x64_0_1 : S100000x1.BroadcastsInDim S100000x64 (![0, 1] : Fin 2 → Fin S100000x64.rank)
  transposes_S64x64_S64x64_1_0 : S64x64.Transposes [1, 0] S64x64
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  transposes_S1000x64_S64x1000_1_0 : S1000x64.Transposes [1, 0] S64x1000
  bcast_S1000_S1x1000_1 : S1000.BroadcastsInDim S1x1000 (![1] : Fin 1 → Fin S1x1000.rank)
  bcast_S1x1000_S100000x1000_0_1 : S1x1000.BroadcastsInDim S100000x1000 (![0, 1] : Fin 2 → Fin S100000x1000.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000x1_S1600000x1_S1600000x1_1_0_0_1_wf : ScatterDims.WF S100000x1 S1600000x1 S1600000x1 [1] [0] [0] 1
  dot_S100000x64_S64x64_S100000x64_1_0_0_1_n_n_wf : DotDims.WF S100000x64 S64x64 S100000x64 [1] [0] [0] [1] [] []
  dot_S100000x64_S64x1000_S100000x1000_1_0_0_1_n_n_wf : DotDims.WF S100000x64 S64x1000 S100000x1000 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x1000_S100000x1000_1_0_0_1_n_n : DotDims S100000x64 S64x1000 S100000x1000 where
  lhsContracting := [1]
  rhsContracting := [0]
  lhsNonContracting := [0]
  rhsNonContracting := [1]
  lhsBatch := []
  rhsBatch := []
  wf := dot_S100000x64_S64x1000_S100000x1000_1_0_0_1_n_n_wf

class Facts : Prop extends Facts₀ where

variable [Facts]
-- ==== Proof.LibMeanLayer.lean ====
/-
  One mean-aggregation graph layer, entry by entry on the extended reals, in the two arrangements the two
  programs use, and the law that joins them.

  A layer takes, per node p, the SUM agg(p,·) of its in-neighbours' feature rows, the node's in-degree c(p), its own
  feature row h(p,·), two weight matrices and a bias, and returns

      max( Σ_k mean(p,k)·W_l(q,k) + b(q) + Σ_k h(p,k)·W_r(q,k) , 0 ),      mean(p,k) = agg(p,k) / max(c(p),1).

  One program divides the sum by the clamped degree; the other multiplies it by the reciprocal 1 / max(c(p),1), uses
  the weights already transposed, and adds the bias last. The clamped degree is at least 1, so it is never zero, and
  for a nonzero divisor d both a / d and a·(1/d) are a·d⁻¹ — whatever a is, infinite values included. Sums of three terms
  in two orders agree because addition of extended reals is commutative and associative. No finiteness is used.
-/
import Idealize.ShloMosaic.PureOps.Ideal
import Idealize.ShloMosaic.Lib.ValueIdx

noncomputable section

namespace MeanLayer

open Idealize.ShloMosaic Idealize.ShloMosaic.ValueIdx

/-- The f32 word of 1.0 denotes the number 1. -/
theorem one_f32 : Ideal.ofBits .f32 0x3F800000#32 = 1 := by
  simp [Ideal.ofBits, Ideal.ieee, -EReal.coe_mul]; norm_num

/-- A degree clamped below by 1 is positive, so it is not zero. -/
theorem clamp_ne_zero (c : EReal) : max c 1 ≠ 0 :=
  ne_of_gt (lt_of_lt_of_le zero_lt_one (le_max_right c 1))

/-- Multiplying by the reciprocal of a clamped degree is dividing by it, for EVERY extended real `a`: both sides are
    `a · (max c 1)⁻¹`, the divisor not being zero. -/
theorem mul_recip_clamp (a c : EReal) : a * Ideal.div 1 (max c 1) = Ideal.div a (max c 1) := by
  rw [Ideal.div, Ideal.div, if_neg (clamp_ne_zero c), if_neg (clamp_ne_zero c), one_mul]

/-- The same with the two ones spelt as the f32 word of 1.0. -/
theorem mul_recip_clamp_word (a c : EReal) :
    a * Ideal.div (Ideal.ofBits .f32 0x3F800000#32) (max c (Ideal.ofBits .f32 0x3F800000#32))
      = Ideal.div a (max c (Ideal.ofBits .f32 0x3F800000#32)) := by
  rw [one_f32]; exact mul_recip_clamp a c

/-- A matrix of extended reals over the index type of an `[a, b]` array, and a vector over that of an `[a]` array. -/
abbrev Mat (a b : ℕ) := (⟨2, ![a, b]⟩ : Shape).Idx → EReal
abbrev Row (a : ℕ) := (⟨1, ![a]⟩ : Shape).Idx → EReal

/-- Hidden unit (p, q) of one layer in the arrangement that multiplies by a reciprocal degree column `inv`, contracts
    against weights stored input-feature-major (`wl (k, q)`), adds the self term second and the bias last, and
    rectifies against the f32 zero word. -/
def hidden {n d e : ℕ} (agg : Mat n d) (inv : Mat n 1) (h : Mat n d) (wl wr : Mat d e) (b : Row e)
    (p : Fin n) (q : Fin e) : EReal :=
  max ((∑ k : Fin d, (agg (ix2 p k) * inv (ix2 p (0 : Fin 1))) * wl (ix2 k q))
        + (∑ k : Fin d, h (ix2 p k) * wr (ix2 k q)) + b (ix1 q))
      (Ideal.ofBits .f32 0x00000000#32)

/-- The layer as a whole array: entry `i` is hidden unit `(i 0, i 1)`. -/
def layer {n d e : ℕ} (agg : Mat n d) (inv : Mat n 1) (h : Mat n d) (wl wr : Mat d e) (b : Row e) : Mat n e :=
  fun i => hidden agg inv h wl wr b (i 0) (i 1)

theorem layer_apply {n d e : ℕ} (agg : Mat n d) (inv : Mat n 1) (h : Mat n d) (wl wr : Mat d e) (b : Row e)
    (p : Fin n) (q : Fin e) : layer agg inv h wl wr b (ix2 p q) = hidden agg inv h wl wr b p q := rfl

/-- Output unit (p, r) of the last stage: a second layer's hidden row contracted against the read-out weights
    (stored hidden-feature-major, `fw (j, r)`) plus the read-out bias. -/
def readout {n d e o : ℕ} (agg : Mat n d) (inv : Mat n 1) (h : Mat n d) (wl wr : Mat d e) (b : Row e)
    (fw : Mat e o) (fb : Row o) (p : Fin n) (r : Fin o) : EReal :=
  (∑ j : Fin e, hidden agg inv h wl wr b p j * fw (ix2 j r)) + fb (ix1 r)

/-- The last stage as a whole array. -/
def head {n d e o : ℕ} (agg : Mat n d) (inv : Mat n 1) (h : Mat n d) (wl wr : Mat d e) (b : Row e)
    (fw : Mat e o) (fb : Row o) : Mat n o :=
  fun i => readout agg inv h wl wr b fw fb (i 0) (i 1)

theorem head_apply {n d e o : ℕ} (agg : Mat n d) (inv : Mat n 1) (h : Mat n d) (wl wr : Mat d e) (b : Row e)
    (fw : Mat e o) (fb : Row o) (p : Fin n) (r : Fin o) :
    head agg inv h wl wr b fw fb (ix2 p r) = readout agg inv h wl wr b fw fb p r := rfl

/-- The joining law at one hidden unit: with the reciprocal column `1 / max(c p, 1)` and transposed weights, the
    reciprocal arrangement equals the dividing one (division first, bias second, self term last). -/
theorem hidden_eq_divided {n d e : ℕ} (agg : Mat n d) (c : Fin n → EReal) (inv : Mat n 1) (h : Mat n d)
    (wl wr : Mat d e) (Wl Wr : Mat e d) (b : Row e)
    (hinv : ∀ p, inv (ix2 p (0 : Fin 1))
      = Ideal.div (Ideal.ofBits .f32 0x3F800000#32) (max (c p) (Ideal.ofBits .f32 0x3F800000#32)))
    (hwl : ∀ k q, wl (ix2 k q) = Wl (ix2 q k)) (hwr : ∀ k q, wr (ix2 k q) = Wr (ix2 q k))
    (p : Fin n) (q : Fin e) :
    hidden agg inv h wl wr b p q
      = max ((∑ k : Fin d, Ideal.div (agg (ix2 p k)) (max (c p) (Ideal.ofBits .f32 0x3F800000#32)) * Wl (ix2 q k))
              + b (ix1 q) + (∑ k : Fin d, h (ix2 p k) * Wr (ix2 q k)))
            (Ideal.ofBits .f32 0x00000000#32) := by
  unfold hidden
  congr 1
  rw [add_right_comm]
  congr 1
  · congr 1
    refine Finset.sum_congr rfl fun k _ => ?_
    rw [hinv p, mul_recip_clamp_word, hwl]
  · refine Finset.sum_congr rfl fun k _ => ?_
    rw [hwr]

end MeanLayer

end
-- ==== Proof.RefValue.lean ====
/-
  What the reference computes, as one function of its ten arguments, entry by entry.

  With e the edge list, N(p) the edges whose destination is p, and c(p) their number, the reference computes twice

      h'(p,q) = max( Σ_k ( Σ_{j∈N(p)} h(src j, k) / max(c(p),1) ) · W_l(q,k) + b(q) + Σ_k h(p,k) · W_r(q,k) , 0 )

  and then out(p,r) = Σ_j h''(p,j) · W_fc(r,j) + b_fc(r). The neighbour sums are a gather of rows followed by a scatter-add;
  they are carried here as ONE function `aggOf` of the feature array and the two index rows and are never opened: both
  programs apply the same operations to the same values. What is opened is everything around them: the division by the
  clamped degree, the two contractions against transposed weights, the bias, the rectifier, the read-out. Each layer is
  `MeanLayer.layer` (the arrangement that multiplies by the reciprocal of the clamped degree) by the joining law
  `MeanLayer.hidden_eq_divided`; the read-out on top of the second layer is `MeanLayer.head`.
-/
import proofs.«142700_j90829968376535_2_alg».proof.Proof.Gen.ReferenceIdeal.Read
import proofs.«142700_j90829968376535_2_alg».proof.Proof.LibMeanLayer
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem

abbrev Edges := (⟨S2x1600000, .i32⟩ : BufTy).Contents (Elt Ideal)
abbrev EdgeRow := (⟨S1600000, .i32⟩ : BufTy).Contents (Elt Ideal)
abbrev Feat := (⟨S100000x64, .f32⟩ : BufTy).Contents (Elt Ideal)
abbrev W64 := (⟨S64x64, .f32⟩ : BufTy).Contents (Elt Ideal)
abbrev B64 := (⟨S64, .f32⟩ : BufTy).Contents (Elt Ideal)

/-- The neighbour sums of a feature array: rows gathered at the source indices `s` (a negative index wrapped by the
    node count first), scatter-added into a zero array at the destination indices `d`. Carried whole, never opened. -/
def aggOf (h : Feat) (s d : EdgeRow) : Feat :=
  Host.scatterAdd (F := Ideal) (φ := .f32) scatter_S100000x64_S1600000x1_S1600000x64_1_0_0_1 (val_main_v11 (F := Ideal))
    (broadcastInDim S1600000x1 ![0] bcast_S1600000_S1600000x1_0 d)
    (Host.gather gather_S100000x64_S1600000x1_S1600000x64_1_0_n_n_0_1_164 h
      (broadcastInDim S1600000x1 ![0] bcast_S1600000_S1600000x1_0
        (select (cmpi .slt s (val_main_v4 (F := Ideal))) (addi s (val_main_v6 (F := Ideal))) s)))

/-- The first layer's neighbour sums are `aggOf` of the node features. -/
theorem v13_eq (x0 : Feat) (x1 : Edges) :
    val_main_v13 (F := Ideal) x0 x1 = aggOf x0 (val_main_v1 (F := Ideal) x1) (val_main_v3 (F := Ideal) x1) := rfl

/-- The second layer's are `aggOf` of the first layer's output, over the same index rows. -/
theorem v40_eq (x0 : Feat) (x1 : Edges) (x2 : W64) (x3 : B64) (x4 : W64) :
    val_main_v40 (F := Ideal) x0 x1 x2 x3 x4
      = aggOf (val_main_v30 (F := Ideal) x0 x1 x2 x3 x4) (val_main_v1 (F := Ideal) x1) (val_main_v3 (F := Ideal) x1) := rfl

/-- Over any feature array, the stages' gather and scatter are `aggOf` over the same index rows. -/
theorem agg_fold (h : Feat) (x1 : Edges) :
    Host.scatterAdd (F := Ideal) (φ := .f32) scatter_S100000x64_S1600000x1_S1600000x64_1_0_0_1 (val_main_v11 (F := Ideal))
        (val_main_v12 (F := Ideal) x1)
        (Host.gather gather_S100000x64_S1600000x1_S1600000x64_1_0_n_n_0_1_164 h (val_main_v9 (F := Ideal) x1))
      = aggOf h (val_main_v1 (F := Ideal) x1) (val_main_v3 (F := Ideal) x1) := rfl

/-- The reciprocal of the clamped in-degree, as a column. -/
def invDeg (x1 : Edges) : (⟨S100000x1, .f32⟩ : BufTy).Contents (Elt Ideal) :=
  Host.divf (F := Ideal) (φ := .f32) (val_main_v18 (F := Ideal)) (val_main_v19 (F := Ideal) x1)

/-- At node p it is `1 / max(c(p), 1)`, the degree being the scatter-added ones. -/
theorem invDeg_apply (x1 : Edges) (p : Fin 100000) :
    invDeg x1 (ix2 p (0 : Fin 1))
      = Ideal.div (Ideal.ofBits .f32 0x3F800000#32)
          (max (val_main_v17 (F := Ideal) x1 (ix2 p (0 : Fin 1))) (Ideal.ofBits .f32 0x3F800000#32)) := by
  unfold invDeg
  refine (hostDivf_apply (s := S100000x1) (φ := .f32) (val_main_v18 (F := Ideal)) (val_main_v19 (F := Ideal) x1)
    (ix2 p (0 : Fin 1))).trans ?_
  rw [val_main_v19_apply, val_main_v18_apply, val_main_cst_3_apply]
  simp only [Ideal.maximumf_def, Ideal.ofBits_def]

/-- The second layer recomputes the degree by the same operations. -/
theorem v44_eq (x1 : Edges) : val_main_v44 (F := Ideal) x1 = val_main_v17 (F := Ideal) x1 := rfl

/-- The first layer's output. -/
def hidden1 (x0 : Feat) (x1 : Edges) (x2 : W64) (x3 : B64) (x4 : W64) : Feat :=
  MeanLayer.layer (n := 100000) (d := 64) (e := 64) (aggOf x0 (val_main_v1 (F := Ideal) x1) (val_main_v3 (F := Ideal) x1))
    (invDeg x1) x0 (val_main_v22 (F := Ideal) x2) (val_main_v27 (F := Ideal) x4) x3

/-- The second layer's output, over the first's. -/
def hidden2 (x0 : Feat) (x1 : Edges) (x2 : W64) (x3 : B64) (x4 : W64) (x5 : W64) (x6 : B64) (x7 : W64) : Feat :=
  MeanLayer.layer (n := 100000) (d := 64) (e := 64)
    (aggOf (hidden1 x0 x1 x2 x3 x4) (val_main_v1 (F := Ideal) x1) (val_main_v3 (F := Ideal) x1))
    (invDeg x1) (hidden1 x0 x1 x2 x3 x4) (val_main_v49 (F := Ideal) x5) (val_main_v54 (F := Ideal) x7) x6

/-- The network's result. -/
def result (x0 : Feat) (x1 : Edges) (x2 : W64) (x3 : B64) (x4 : W64) (x5 : W64) (x6 : B64) (x7 : W64) (x8 : (⟨S1000x64, .f32⟩ : BufTy).Contents (Elt Ideal)) (x9 : (⟨S1000, .f32⟩ : BufTy).Contents (Elt Ideal)) : (⟨S100000x1000, .f32⟩ : BufTy).Contents (Elt Ideal) :=
  MeanLayer.head (n := 100000) (d := 64) (e := 64) (o := 1000)
    (aggOf (hidden1 x0 x1 x2 x3 x4) (val_main_v1 (F := Ideal) x1) (val_main_v3 (F := Ideal) x1))
    (invDeg x1) (hidden1 x0 x1 x2 x3 x4) (val_main_v49 (F := Ideal) x5) (val_main_v54 (F := Ideal) x7) x6
    (val_main_v58 (F := Ideal) x8) x9

/-! ## The index functions of the generated read lemmas, at coordinates -/

theorem t22 (k q : Fin 64) : idx_main_v22 (ix2 k q) = (ix2 q k : S64x64.Idx) :=
  funext fun a => by match a with | ⟨0, _⟩ => rfl | ⟨1, _⟩ => rfl
theorem t27 (k q : Fin 64) : idx_main_v27 (ix2 k q) = (ix2 q k : S64x64.Idx) :=
  funext fun a => by match a with | ⟨0, _⟩ => rfl | ⟨1, _⟩ => rfl
theorem t49 (k q : Fin 64) : idx_main_v49 (ix2 k q) = (ix2 q k : S64x64.Idx) :=
  funext fun a => by match a with | ⟨0, _⟩ => rfl | ⟨1, _⟩ => rfl
theorem t54 (k q : Fin 64) : idx_main_v54 (ix2 k q) = (ix2 q k : S64x64.Idx) :=
  funext fun a => by match a with | ⟨0, _⟩ => rfl | ⟨1, _⟩ => rfl
theorem t58 (j : Fin 64) (r : Fin 1000) : idx_main_v58 (ix2 j r) = (ix2 r j : S1000x64.Idx) :=
  funext fun a => by match a with | ⟨0, _⟩ => rfl | ⟨1, _⟩ => rfl

theorem l23 (p : Fin 100000) (q k : Fin 64) : lidx_main_v23 (ix2 p q) k = (ix2 p k : S100000x64.Idx) :=
  funext fun a => by match a with | ⟨0, _⟩ => rfl | ⟨1, _⟩ => rfl
theorem r23 (p : Fin 100000) (q k : Fin 64) : ridx_main_v23 (ix2 p q) k = (ix2 k q : S64x64.Idx) :=
  funext fun a => by match a with | ⟨0, _⟩ => rfl | ⟨1, _⟩ => rfl
theorem l28 (p : Fin 100000) (q k : Fin 64) : lidx_main_v28 (ix2 p q) k = (ix2 p k : S100000x64.Idx) :=
  funext fun a => by match a with | ⟨0, _⟩ => rfl | ⟨1, _⟩ => rfl
theorem r28 (p : Fin 100000) (q k : Fin 64) : ridx_main_v28 (ix2 p q) k = (ix2 k q : S64x64.Idx) :=
  funext fun a => by match a with | ⟨0, _⟩ => rfl | ⟨1, _⟩ => rfl
theorem l50 (p : Fin 100000) (q k : Fin 64) : lidx_main_v50 (ix2 p q) k = (ix2 p k : S100000x64.Idx) :=
  funext fun a => by match a with | ⟨0, _⟩ => rfl | ⟨1, _⟩ => rfl
theorem r50 (p : Fin 100000) (q k : Fin 64) : ridx_main_v50 (ix2 p q) k = (ix2 k q : S64x64.Idx) :=
  funext fun a => by match a with | ⟨0, _⟩ => rfl | ⟨1, _⟩ => rfl
theorem l55 (p : Fin 100000) (q k : Fin 64) : lidx_main_v55 (ix2 p q) k = (ix2 p k : S100000x64.Idx) :=
  funext fun a => by match a with | ⟨0, _⟩ => rfl | ⟨1, _⟩ => rfl
theorem r55 (p : Fin 100000) (q k : Fin 64) : ridx_main_v55 (ix2 p q) k = (ix2 k q : S64x64.Idx) :=
  funext fun a => by match a with | ⟨0, _⟩ => rfl | ⟨1, _⟩ => rfl
theorem l59 (p : Fin 100000) (r : Fin 1000) (j : Fin 64) : lidx_main_v59 (ix2 p r) j = (ix2 p j : S100000x64.Idx) :=
  funext fun a => by match a with | ⟨0, _⟩ => rfl | ⟨1, _⟩ => rfl
theorem r59 (p : Fin 100000) (r : Fin 1000) (j : Fin 64) : ridx_main_v59 (ix2 p r) j = (ix2 j r : S64x1000.Idx) :=
  funext fun a => by match a with | ⟨0, _⟩ => rfl | ⟨1, _⟩ => rfl

theorem c20 (p : Fin 100000) (k : Fin 64) : idx_main_v20 (ix2 p k) = (ix2 p (0 : Fin 1) : S100000x1.Idx) :=
  funext fun a => by match a with | ⟨0, _⟩ => rfl | ⟨1, _⟩ => rfl
theorem c47 (p : Fin 100000) (k : Fin 64) : idx_main_v47 (ix2 p k) = (ix2 p (0 : Fin 1) : S100000x1.Idx) :=
  funext fun a => by match a with | ⟨0, _⟩ => rfl | ⟨1, _⟩ => rfl
theorem b25 (p : Fin 100000) (q : Fin 64) : idx_main_v24 (idx_main_v25 (ix2 p q)) = (ix1 q : S64.Idx) :=
  funext fun a => by match a with | ⟨0, _⟩ => rfl
theorem b52 (p : Fin 100000) (q : Fin 64) : idx_main_v51 (idx_main_v52 (ix2 p q)) = (ix1 q : S64.Idx) :=
  funext fun a => by match a with | ⟨0, _⟩ => rfl
theorem b61 (p : Fin 100000) (r : Fin 1000) : idx_main_v60 (idx_main_v61 (ix2 p r)) = (ix1 r : S1000.Idx) :=
  funext fun a => by match a with | ⟨0, _⟩ => rfl

/-! ## The quotient, the clamp and the constants at an index

The stages a layer's mean is made of, each read at one index from its operands: a divide stage is the quotient of its
operands' elements, a clamp stage the larger of the degree and one, a unit constant the f32 word of 1.0; the two
neighbour-sum stages are `aggOf` of the node features and of the first layer, and the second degree is the first. -/

theorem v21_at (x0 : Feat) (x1 : Edges) (i : S100000x64.Idx) :
    val_main_v21 (F := Ideal) x0 x1 i
      = FloatOps.hostDivf (F := Ideal) (φ := .f32) (val_main_v13 (F := Ideal) x0 x1 i) (val_main_v20 (F := Ideal) x1 i) := by
  rw [val_main_v21_apply]
theorem v19_at (x1 : Edges) (i : S100000x1.Idx) :
    val_main_v19 (F := Ideal) x1 i
      = FloatOps.maximumf (F := Ideal) (φ := .f32) (val_main_v17 (F := Ideal) x1 i) (val_main_v18 (F := Ideal) i) := by
  rw [val_main_v19_apply]
theorem cst3_at (i : S_.Idx) : val_main_cst_3 (F := Ideal) i = FloatOps.ofBits (F := Ideal) .f32 0x3F800000#32 := by
  rw [val_main_cst_3_apply]
theorem v13_at (x0 : Feat) (x1 : Edges) :
    val_main_v13 (F := Ideal) x0 x1 = aggOf x0 (val_main_v1 (F := Ideal) x1) (val_main_v3 (F := Ideal) x1) := by
  rw [v13_eq]
theorem v48_at (x0 : Feat) (x1 : Edges) (x2 : W64) (x3 : B64) (x4 : W64) (i : S100000x64.Idx) :
    val_main_v48 (F := Ideal) x0 x1 x2 x3 x4 i
      = FloatOps.hostDivf (F := Ideal) (φ := .f32) (val_main_v40 (F := Ideal) x0 x1 x2 x3 x4 i) (val_main_v47 (F := Ideal) x1 i) := by
  rw [val_main_v48_apply]
theorem v46_at (x1 : Edges) (i : S100000x1.Idx) :
    val_main_v46 (F := Ideal) x1 i
      = FloatOps.maximumf (F := Ideal) (φ := .f32) (val_main_v44 (F := Ideal) x1 i) (val_main_v45 (F := Ideal) i) := by
  rw [val_main_v46_apply]
theorem cst9_at (i : S_.Idx) : val_main_cst_9 (F := Ideal) i = FloatOps.ofBits (F := Ideal) .f32 0x3F800000#32 := by
  rw [val_main_cst_9_apply]
theorem v40_at (x0 : Feat) (x1 : Edges) (x2 : W64) (x3 : B64) (x4 : W64) :
    val_main_v40 (F := Ideal) x0 x1 x2 x3 x4
      = aggOf (val_main_v30 (F := Ideal) x0 x1 x2 x3 x4) (val_main_v1 (F := Ideal) x1) (val_main_v3 (F := Ideal) x1) := by
  rw [v40_eq]
theorem v44_at (x1 : Edges) : val_main_v44 (F := Ideal) x1 = val_main_v17 (F := Ideal) x1 := by
  rw [v44_eq]

/-! ## The two layers and the read-out -/

/-- The reference's first rectified array is the first layer. -/
theorem hidden1_eq (x0 : Feat) (x1 : Edges) (x2 : W64) (x3 : B64) (x4 : W64) : val_main_v30 (F := Ideal) x0 x1 x2 x3 x4 = hidden1 x0 x1 x2 x3 x4 := by
  funext i
  obtain ⟨p, q, rfl⟩ : ∃ (p : Fin 100000) (q : Fin 64), i = ix2 p q := ⟨i 0, i 1, eq_ix2 i⟩
  unfold hidden1
  rw [MeanLayer.layer_apply, MeanLayer.hidden_eq_divided (n := 100000) (d := 64) (e := 64)
    (aggOf x0 (val_main_v1 (F := Ideal) x1) (val_main_v3 (F := Ideal) x1))
    (fun p => val_main_v17 (F := Ideal) x1 (ix2 p (0 : Fin 1))) (invDeg x1) x0
    (val_main_v22 (F := Ideal) x2) (val_main_v27 (F := Ideal) x4) x2 x4 x3
    (fun p => invDeg_apply x1 p)
    (fun k q => (val_main_v22_apply x2 (ix2 k q)).trans (congrArg x2 (t22 k q)))
    (fun k q => (val_main_v27_apply x4 (ix2 k q)).trans (congrArg x4 (t27 k q))) p q]
  rw [val_main_v30_apply, val_main_v29_apply, val_main_v26_apply, val_main_v23_apply, val_main_v28_apply,
    val_main_v25_apply, val_main_v24_apply, val_main_call0_v0_apply, val_main_call0_cst_apply]
  simp only [v21_at, val_main_v20_apply, v19_at, val_main_v18_apply, cst3_at, val_main_v22_apply, val_main_v27_apply, v13_at]
  generalize aggOf x0 (val_main_v1 (F := Ideal) x1) (val_main_v3 (F := Ideal) x1) = nbr
  generalize val_main_v17 (F := Ideal) x1 = cnt
  simp only [l23, r23, l28, r28, t22, t27, c20, b25,
    Ideal.addf_def, Ideal.hostDivf_def, Ideal.maximumf_def, Ideal.ofBits_def]

/-- The reference's second rectified array is the second layer over the first. -/
theorem hidden2_eq (x0 : Feat) (x1 : Edges) (x2 : W64) (x3 : B64) (x4 : W64) (x5 : W64) (x6 : B64) (x7 : W64) :
    val_main_v57 (F := Ideal) x0 x1 x2 x3 x4 x5 x6 x7 = hidden2 x0 x1 x2 x3 x4 x5 x6 x7 := by
  funext i
  obtain ⟨p, q, rfl⟩ : ∃ (p : Fin 100000) (q : Fin 64), i = ix2 p q := ⟨i 0, i 1, eq_ix2 i⟩
  unfold hidden2
  rw [MeanLayer.layer_apply, MeanLayer.hidden_eq_divided (n := 100000) (d := 64) (e := 64)
    (aggOf (hidden1 x0 x1 x2 x3 x4) (val_main_v1 (F := Ideal) x1) (val_main_v3 (F := Ideal) x1))
    (fun p => val_main_v17 (F := Ideal) x1 (ix2 p (0 : Fin 1))) (invDeg x1) (hidden1 x0 x1 x2 x3 x4)
    (val_main_v49 (F := Ideal) x5) (val_main_v54 (F := Ideal) x7) x5 x7 x6
    (fun p => invDeg_apply x1 p)
    (fun k q => (val_main_v49_apply x5 (ix2 k q)).trans (congrArg x5 (t49 k q)))
    (fun k q => (val_main_v54_apply x7 (ix2 k q)).trans (congrArg x7 (t54 k q))) p q]
  rw [val_main_v57_apply, val_main_v56_apply, val_main_v53_apply, val_main_v50_apply, val_main_v55_apply,
    val_main_v52_apply, val_main_v51_apply, val_main_call1_v0_apply, val_main_call1_cst_apply]
  simp only [v48_at, val_main_v47_apply, v46_at, val_main_v45_apply, cst9_at, val_main_v49_apply, val_main_v54_apply,
    v40_at, v44_at, hidden1_eq]
  generalize hidden1 x0 x1 x2 x3 x4 = h1
  generalize aggOf h1 (val_main_v1 (F := Ideal) x1) (val_main_v3 (F := Ideal) x1) = nbr
  generalize val_main_v17 (F := Ideal) x1 = cnt
  simp only [l50, r50, l55, r55, t49, t54, c47, b52,
    Ideal.addf_def, Ideal.hostDivf_def, Ideal.maximumf_def, Ideal.ofBits_def]

/-- The reference's result is the read-out of the second layer. -/
theorem result_eq (x0 : Feat) (x1 : Edges) (x2 : W64) (x3 : B64) (x4 : W64) (x5 : W64) (x6 : B64) (x7 : W64) (x8 : (⟨S1000x64, .f32⟩ : BufTy).Contents (Elt Ideal)) (x9 : (⟨S1000, .f32⟩ : BufTy).Contents (Elt Ideal)) :
    val_main_v62 (F := Ideal) x0 x1 x2 x3 x4 x5 x6 x7 x8 x9 = result x0 x1 x2 x3 x4 x5 x6 x7 x8 x9 := by
  funext i
  obtain ⟨p, r, rfl⟩ : ∃ (p : Fin 100000) (r : Fin 1000), i = ix2 p r := ⟨i 0, i 1, eq_ix2 i⟩
  rw [val_main_v62_apply, val_main_v59_apply, val_main_v61_apply, val_main_v60_apply, hidden2_eq]
  simp only [l59, r59, b61, Ideal.addf_def]
  unfold result hidden2
  rw [MeanLayer.head_apply]
  unfold MeanLayer.readout
  simp only [MeanLayer.layer_apply]

end Cert.ReferenceIdeal.RefValue

end
-- ==== Proof.WholeRun.lean ====
/-
  The idealized kernel program's run with EVERY buffer named: every weakly fair execution of @main terminates, nothing
  faulting, and each of the core's unscoped buffers ends at the contents `Gen.W4` — the launch memory pushed through the
  first stretch of host operations, the first pallas_call's write-backs, the second stretch, and the second call's
  write-backs. The result buffer and the ten arguments are read off that.
-/
import proofs.«142700_j90829968376535_2_alg».proof.Proof.Gen.KernelIdeal.Frame

set_option maxRecDepth 16384

noncomputable section

namespace Cert.KernelIdeal.WholeRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the four segments, its last thread state read against the final memory: every unscoped buffer of
    every core holds `W4`'s contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The same run with the result buffer and the ten arguments picked out: the result at `W4`'s contents for it, each
    argument as launched. -/
theorem run_named : θ_run defs (onTc (τ := τ) (main (F := F))) ⟨m, fun _ => 0, ρ⟩ (fun r => ∀ c : Dev nD,
      r.2.mem ((c.tc : Thread nD τ).loc main_v43) = W4 m ρ c (Proc.devRef .tc main_v43)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c =>
      ⟨h c _ (mem_uc main_v43 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c)⟩)
    (run_all m ρ)

end Cert.KernelIdeal.WholeRun

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibDotRecord.lean ====
/-
  A printed matrix-product record read as the plain product, and a row vector broadcast down the rows.

  A matrix product of an [M, K] by a [K, N] operand that contracts the left operand's columns with the right
  operand's rows and has no batch axis is determined by its six lists of axes; the record's last field is a proof.
  So any record with those lists IS the plain record, and every lemma about the plain product reads it: at entry
  (p, q) the product accumulated into zero is the sum over k of lhs (p, k) * rhs (k, q).
  A [1, b] row broadcast over [a, b] reads, at (r, c), the row's entry c.
-/
import proofs.«142700_j90829968376535_2_alg».proof.Proof.LibPlainDot
import Idealize.ShloMosaic.Lib.Pipeline.Value

namespace DotRecord

open Idealize.ShloMosaic Idealize.ShloMosaic.ValueIdx

variable {M K N : ℕ}

/-- A record whose six axis lists are the plain product's is the plain product's record. -/
theorem eq_plain (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = []) :
    d = DotDims.plain M K N := by
  obtain ⟨lc, rc, ln, rn, lb, rb, wf⟩ := d
  simp only at h1 h2 h3 h4 h5 h6
  subst h1 h2 h3 h4 h5 h6
  rfl

/-- The matrix unit accumulating into the zero vector, under any record with the plain lists, at entry (p, q). -/
theorem matmul_zero_apply {φ₁ φ₂ : FTy} (d : DotDims ⟨2, ![M, K]⟩ ⟨2, ![K, N]⟩ ⟨2, ![M, N]⟩)
    (h1 : d.lhsContracting = [1]) (h2 : d.rhsContracting = [0]) (h3 : d.lhsNonContracting = [0])
    (h4 : d.rhsNonContracting = [1]) (h5 : d.lhsBatch = []) (h6 : d.rhsBatch = [])
    (lhs : FVec Ideal ⟨2, ![M, K]⟩ φ₁) (rhs : FVec Ideal ⟨2, ![K, N]⟩ φ₂)
    (prec : Option ContractPrecision) (p : Fin M) (q : Fin N) :
    FloatOps.matmul d prec lhs rhs (constant ⟨2, ![M, N]⟩ .f32 0x00000000#32) (ix2 p q)
      = ∑ k : Fin K, lhs (ix2 p k) * rhs (ix2 k q) := by
  rw [eq_plain d h1 h2 h3 h4 h5 h6]
  exact Gcn.Lib.plain_matmul_zero_apply lhs rhs prec p q

/-- A row [1, b] broadcast over [a, b] reads, at (r, c), the row's entry c. -/
theorem broadcastTo_1b_ab_apply {α : Type} {a b : ℕ} (v : (⟨2, ![1, b]⟩ : Shape).Idx → α)
    (h : (⟨2, ![1, b]⟩ : Shape).Broadcasts ⟨2, ![a, b]⟩) (r : Fin a) (c : Fin b) :
    broadcastTo ⟨2, ![a, b]⟩ v h (ix2 r c) = v (ix2 (0 : Fin 1) c) := by
  refine broadcastTo_apply v h (ix2 r c) (ix2 (0 : Fin 1) c) fun ax => ?_
  match ax with
  | ⟨0, _⟩ =>
    show (0 : ℕ) = if (1 : ℕ) = 1 then 0 else r.val
    rw [if_pos rfl]
  | ⟨1, _⟩ =>
    show c.val = if b = 1 then 0 else c.val
    split
    · have := c.isLt; omega
    · rfl

end DotRecord
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.LibTileOps.lean ====
/-
  The layout chains of a tile body, read at an entry.

  A body that works on an `[a, b]` tile against per-column parameters meets a handful of chains of layout
  operations again and again: a `[b]` vector recast to the row `[1, b]` and broadcast down the tile's rows; one row of a
  `[m, b]` block sliced out, flattened, recast and broadcast the same way; one `[1, a, b]` slab of an `[m, a, b]` stack
  loaded through its rectangle and recast to the matrix `[a, b]`; a row sum recast to a column and broadcast across the
  tile's columns. Each lemma reads one chain at the entry `(p, c)` as the operand at the evident index.
-/
import Idealize.ShloMosaic.PureOps.Ideal.Laws
import Idealize.ShloMosaic.Lib.ValueIdx
import Idealize.ShloMosaic.Lib.ValueLayout
import Idealize.ShloMosaic.Lib.Pipeline.Value
import proofs.«142700_j90829968376535_2_alg».proof.Proof.LibRowOps

namespace Hmu.Lib

open Idealize.ShloMosaic Idealize.ShloMosaic.ValueIdx

variable {a b m : ℕ} {α : Type}

/-- A `[b]` vector recast to the row `[1, b]` and broadcast over `[a, b]` reads, at `(p, c)`, the vector at `c`. -/
theorem rowVec_apply (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- The same with a cast of the vector to its own shape first. -/
theorem rowVec_self_apply (v : (⟨1, ![b]⟩ : Shape).Idx → α) (h0 : (⟨1, ![b]⟩ : Shape).ShapeCasts ⟨1, ![b]⟩)
    (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ v h0) h1) h2 (ix2 p c) = v (ix1 c) := by
  rw [shapeCast_self]; exact rowVec_apply v h1 h2 p c

/-- Row `k` of an `[m, b]` block, sliced out as `[1, b]` at the literal offset `o = k`, flattened to `[b]`, recast to `[1, b]` and
    broadcast over `[a, b]`, reads at `(p, c)` the block at `(k, c)`. -/
theorem blockRow_apply (v : (⟨2, ![m, b]⟩ : Shape).Idx → α) (o : ℕ) (k : Fin m) (hk : k.val = o)
    (hs : (⟨2, ![m, b]⟩ : Shape).Slices ![o, 0] ⟨2, ![1, b]⟩)
    (h0 : (⟨2, ![1, b]⟩ : Shape).ShapeCasts ⟨1, ![b]⟩) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ (shapeCast ⟨1, ![b]⟩ (extractStridedSlice ⟨2, ![1, b]⟩ ![o, 0] v hs) h0) h1) h2 (ix2 p c)
      = v (ix2 k c) :=
  (rowVec_apply _ h1 h2 p c).trans <| (shapeCast_1a_a_apply _ h0 c).trans <|
    slice2_axis0_apply o v hs (0 : Fin 1) c k (by simp [hk])

/-- A row sum of an `[a, b]` tile, recast to the column `[a, 1]` and broadcast over `[a, b]`, reads at `(p, c)` the sum of
    row `p`. -/
theorem rowSumCol_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ (multiReduction .add [1] ⟨1, ![a]⟩ v 0x00000000#32 h hφ hacc) h1) h2 (ix2 p c)
      = ∑ k : Fin b, v (ix2 p k) :=
  (Gcn.Lib.broadcastTo_a1_ab_apply _ h2 p c).trans <| (Gcn.Lib.shapeCast_a_a1_apply _ h1 p 0).trans <|
    Gcn.Lib.rowSum_apply v h hφ hacc p

/-- Slab `k` of an `[m, a, b]` stack, loaded through the rectangle of extents `[1, a, b]` at the literal offsets `[o, 0, 0]`,
    `o = k`, reads at `(0, i, j)` the stack at `(k, i, j)`. -/
theorem ld_slab {Val : EltTy → Type} {e : EltTy} (x : (⟨3, ![m, a, b]⟩ : Shape).Idx → Val e) (o : ℕ) (k : Fin m) (hk : k.val = o)
    (inb : ∀ ax, (![o, 0, 0] : Fin 3 → ℕ) ax + (⟨3, ![1, a, b]⟩ : Shape).size ax ≤ (⟨3, ![m, a, b]⟩ : Shape).size ax)
    (i : Fin a) (j : Fin b) :
    View.ld (Val := Val) x (Rect.unit (s := ⟨3, ![m, a, b]⟩) ![o, 0, 0] (⟨3, ![1, a, b]⟩ : Shape).size inb) (ix3 (0 : Fin 1) i j)
      = x (ix3 k i j) := by
  show x ((Rect.unit (s := ⟨3, ![m, a, b]⟩) ![o, 0, 0] (⟨3, ![1, a, b]⟩ : Shape).size inb).idx (ix3 (0 : Fin 1) i j)) = _
  refine congrArg x (funext fun ax => Fin.ext ?_)
  match ax with
  | ⟨0, _⟩ => show o + 1 * 0 = k.val; omega
  | ⟨1, _⟩ => show 0 + 1 * i.val = i.val; omega
  | ⟨2, _⟩ => show 0 + 1 * j.val = j.val; omega

end Hmu.Lib
-- ==== Proof.LibMeanLayerTile.lean ====
/-
  A kernel tile's mean-aggregation layer read at an entry, every extent generic.

  The tile body takes a block `v0` of neighbour sums `[a, d]`, the matching block `v2` of reciprocal degrees `[a, 1]`, the
  block `v7` of the nodes' own rows `[a, d]`, two weight matrices `[d, e]` and a bias `[e]`. It broadcasts the reciprocal
  column across the row, multiplies, narrows both row blocks for the matrix unit (a change of format: the identity on
  extended reals), accumulates both products into zero, adds them, adds the bias recast to a row `[1, e]` and repeated down the
  tile, and rectifies against a splat of the f32 zero word. At entry (p, q) that is `MeanLayer.hidden` of the blocks:

      max( Σ_k (v0(p,k)·v2(p,0))·wl(k,q) + Σ_k v7(p,k)·wr(k,q) + b(q) , 0 ).

  The read-out stage narrows that tile once more, multiplies by a third matrix `[e, o]` into zero and adds a second bias
  row: entry (p, r) is Σ_j hidden(p, j)·fw(j, r) + fb(r), `MeanLayer.readout`.
-/
import proofs.«142700_j90829968376535_2_alg».proof.Proof.LibMeanLayer
import proofs.«142700_j90829968376535_2_alg».proof.Proof.LibDotRecord
import proofs.«142700_j90829968376535_2_alg».proof.Proof.LibRowOps
import proofs.«142700_j90829968376535_2_alg».proof.Proof.LibTileOps

noncomputable section

namespace MeanLayer

open Idealize.ShloMosaic Idealize.ShloMosaic.ValueIdx

variable {a d e o : ℕ}

/-- The rectified tile of one layer, as the body builds it. -/
def tileHidden (v0 : FVec Ideal ⟨2, ![a, d]⟩ .f32) (v2 : FVec Ideal ⟨2, ![a, 1]⟩ .f32) (v7 : FVec Ideal ⟨2, ![a, d]⟩ .f32)
    (wl wr : FVec Ideal ⟨2, ![d, e]⟩ .bf16) (b : FVec Ideal ⟨1, ![e]⟩ .f32)
    (dd : DotDims ⟨2, ![a, d]⟩ ⟨2, ![d, e]⟩ ⟨2, ![a, e]⟩)
    (hcol : (⟨2, ![a, 1]⟩ : Shape).Broadcasts ⟨2, ![a, d]⟩) (hrow : (⟨1, ![e]⟩ : Shape).ShapeCasts ⟨2, ![1, e]⟩)
    (hdown : (⟨2, ![1, e]⟩ : Shape).Broadcasts ⟨2, ![a, e]⟩) (hlt : FTy.bf16.bits < FTy.f32.bits) :
    FVec Ideal ⟨2, ![a, e]⟩ .f32 :=
  maximumf
    (addf
      (addf
        (matmul dd none (truncf .bf16 (mulf v0 (broadcastTo ⟨2, ![a, d]⟩ v2 hcol)) hlt) wl (constant ⟨2, ![a, e]⟩ .f32 0x00000000#32))
        (matmul dd none (truncf .bf16 v7 hlt) wr (constant ⟨2, ![a, e]⟩ .f32 0x00000000#32)))
      (broadcastTo ⟨2, ![a, e]⟩ (shapeCast ⟨2, ![1, e]⟩ b hrow) hdown))
    (broadcast ⟨2, ![a, e]⟩ (Scalar.ofBits (F := Ideal) .f32 0x00000000#32))

/-- The rectified tile at entry (p, q) is the layer's hidden unit of the blocks. -/
theorem tileHidden_apply (v0 : FVec Ideal ⟨2, ![a, d]⟩ .f32) (v2 : FVec Ideal ⟨2, ![a, 1]⟩ .f32) (v7 : FVec Ideal ⟨2, ![a, d]⟩ .f32)
    (wl wr : FVec Ideal ⟨2, ![d, e]⟩ .bf16) (b : FVec Ideal ⟨1, ![e]⟩ .f32)
    (dd : DotDims ⟨2, ![a, d]⟩ ⟨2, ![d, e]⟩ ⟨2, ![a, e]⟩)
    (h1 : dd.lhsContracting = [1]) (h2 : dd.rhsContracting = [0]) (h3 : dd.lhsNonContracting = [0])
    (h4 : dd.rhsNonContracting = [1]) (h5 : dd.lhsBatch = []) (h6 : dd.rhsBatch = [])
    (hcol : (⟨2, ![a, 1]⟩ : Shape).Broadcasts ⟨2, ![a, d]⟩) (hrow : (⟨1, ![e]⟩ : Shape).ShapeCasts ⟨2, ![1, e]⟩)
    (hdown : (⟨2, ![1, e]⟩ : Shape).Broadcasts ⟨2, ![a, e]⟩) (hlt : FTy.bf16.bits < FTy.f32.bits)
    (p : Fin a) (q : Fin e) :
    tileHidden v0 v2 v7 wl wr b dd hcol hrow hdown hlt (ix2 p q) = hidden v0 v2 v7 wl wr b p q := by
  have e1 := DotRecord.matmul_zero_apply dd h1 h2 h3 h4 h5 h6
    (truncf .bf16 (mulf v0 (broadcastTo ⟨2, ![a, d]⟩ v2 hcol)) hlt) wl none p q
  have e2 := DotRecord.matmul_zero_apply dd h1 h2 h3 h4 h5 h6 (truncf .bf16 v7 hlt) wr none p q
  have e3 := Hmu.Lib.rowVec_apply b hrow hdown p q
  have e4 : ∀ k : Fin d, (truncf .bf16 (mulf v0 (broadcastTo ⟨2, ![a, d]⟩ v2 hcol)) hlt : FVec Ideal ⟨2, ![a, d]⟩ .bf16) (ix2 p k)
      = v0 (ix2 p k) * v2 (ix2 p (0 : Fin 1)) := fun k =>
    congrArg (fun z => v0 (ix2 p k) * z) (Gcn.Lib.broadcastTo_a1_ab_apply v2 hcol p k)
  exact congrArg₂ max
    (congrArg₂ (· + ·)
      (congrArg₂ (· + ·) (e1.trans (Finset.sum_congr rfl fun k _ => congrArg (· * wl (ix2 k q)) (e4 k))) e2) e3) rfl

/-- The read-out tile, as the body builds it from the rectified tile. -/
def tileReadout (hd : FVec Ideal ⟨2, ![a, e]⟩ .f32) (fw : FVec Ideal ⟨2, ![e, o]⟩ .bf16) (fb : FVec Ideal ⟨1, ![o]⟩ .f32)
    (df : DotDims ⟨2, ![a, e]⟩ ⟨2, ![e, o]⟩ ⟨2, ![a, o]⟩)
    (hrow : (⟨1, ![o]⟩ : Shape).ShapeCasts ⟨2, ![1, o]⟩) (hdown : (⟨2, ![1, o]⟩ : Shape).Broadcasts ⟨2, ![a, o]⟩)
    (hlt : FTy.bf16.bits < FTy.f32.bits) : FVec Ideal ⟨2, ![a, o]⟩ .f32 :=
  addf (matmul df none (truncf .bf16 hd hlt) fw (constant ⟨2, ![a, o]⟩ .f32 0x00000000#32))
    (broadcastTo ⟨2, ![a, o]⟩ (shapeCast ⟨2, ![1, o]⟩ fb hrow) hdown)

/-- The read-out tile at entry (p, r): the rectified tile's row p against column r of the read-out weights, plus the bias. -/
theorem tileReadout_apply (hd : FVec Ideal ⟨2, ![a, e]⟩ .f32) (fw : FVec Ideal ⟨2, ![e, o]⟩ .bf16) (fb : FVec Ideal ⟨1, ![o]⟩ .f32)
    (df : DotDims ⟨2, ![a, e]⟩ ⟨2, ![e, o]⟩ ⟨2, ![a, o]⟩)
    (h1 : df.lhsContracting = [1]) (h2 : df.rhsContracting = [0]) (h3 : df.lhsNonContracting = [0])
    (h4 : df.rhsNonContracting = [1]) (h5 : df.lhsBatch = []) (h6 : df.rhsBatch = [])
    (hrow : (⟨1, ![o]⟩ : Shape).ShapeCasts ⟨2, ![1, o]⟩) (hdown : (⟨2, ![1, o]⟩ : Shape).Broadcasts ⟨2, ![a, o]⟩)
    (hlt : FTy.bf16.bits < FTy.f32.bits) (p : Fin a) (r : Fin o) :
    tileReadout hd fw fb df hrow hdown hlt (ix2 p r) = (∑ j : Fin e, hd (ix2 p j) * fw (ix2 j r)) + fb (ix1 r) := by
  have e1 := DotRecord.matmul_zero_apply df h1 h2 h3 h4 h5 h6 (truncf .bf16 hd hlt) fw none p r
  have e3 := Hmu.Lib.rowVec_apply fb hrow hdown p r
  exact congrArg₂ (· + ·) e1 e3

end MeanLayer

end
-- ==== Proof.FirstLayer.lean ====
/-
  The first pallas_call's output array as one function of the arrays the call finds.

  The call runs over 25 grid points; point t reads rows 4000·t … 4000·t + 3999 of the neighbour-sum array, of the reciprocal
  degree column and of the node features, reads the two weight matrices and the bias whole at every point, and writes rows
  4000·t … 4000·t + 3999 of its output. Row p of a tile depends on row p of the three row blocks only, so the tile the
  body stores at point t is the restriction to those rows of ONE function of the whole arrays, `MeanLayer.layer`; the 25
  row blocks cover the output, so after the call the output array is that function. The entry contents `V` of the core's
  buffers are a parameter: nothing here looks at how the arrays were made.
-/
import proofs.«142700_j90829968376535_2_alg».proof.Proof.Gen.KernelIdeal.Frame
import proofs.«142700_j90829968376535_2_alg».proof.Proof.LibMeanLayerTile
import Idealize.ShloMosaic.Lib.Pipeline.Value

set_option maxRecDepth 16384

noncomputable section

namespace Cert.KernelIdeal.FirstLayer

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The output array as a function of the six input arrays (neighbour sums, reciprocal degrees, node features, left
    weights, bias, right weights — the order of the call's operands). -/
def G (a0 : S100000x64.Idx → Elt Ideal .f32) (a1 : S100000x1.Idx → Elt Ideal .f32) (a2 : S100000x64.Idx → Elt Ideal .f32)
    (a3 : S64x64.Idx → Elt Ideal .bf16) (a4 : S64.Idx → Elt Ideal .f32) (a5 : S64x64.Idx → Elt Ideal .bf16) :
    S100000x64.Idx → Elt Ideal .f32 :=
  MeanLayer.layer a0 a1 a2 a3 a5 a4

/-- The body's stored value is the tile of one layer. -/
theorem pay_eq (v0 : Vec Ideal S4000x64 .f32) (v2 : Vec Ideal S4000x1 .f32) (v7 : Vec Ideal S4000x64 .f32)
    (v9 v11 : Vec Ideal S64x64 .bf16) (v15 : Vec Ideal S64 .f32) :
    k0_pay1 (F := Ideal) v0 v2 v7 v9 v11 v15
      = MeanLayer.tileHidden v0 v2 v7 v9 v11 v15 dot_S4000x64_S64x64_S4000x64_1_0_0_1_n_n
          broadcasts_S4000x1_S4000x64 shapeCasts_S64_S1x64 broadcasts_S1x64_S4000x64 bitsLt_bf16_f32 := by
  unfold k0_pay1 MeanLayer.tileHidden
  simp only [shapeCast_self]

/-- One stored entry: entry (p, q) of the tile computed from blocks that are rows `P` of the arrays is entry (P, q) of `G`. -/
theorem point_eq (x0 : Vec Ideal S4000x64 .f32) (x1 : Vec Ideal S4000x1 .f32) (x2 : Vec Ideal S4000x64 .f32)
    (x3 : Vec Ideal S64x64 .bf16) (x4 : Vec Ideal S64 .f32) (x5 : Vec Ideal S64x64 .bf16)
    (a0 : S100000x64.Idx → Elt Ideal .f32) (a1 : S100000x1.Idx → Elt Ideal .f32) (a2 : S100000x64.Idx → Elt Ideal .f32)
    (a3 : S64x64.Idx → Elt Ideal .bf16) (a4 : S64.Idx → Elt Ideal .f32) (a5 : S64x64.Idx → Elt Ideal .bf16)
    (P : Fin 100000) (p : Fin 4000) (q : Fin 64)
    (h0 : ∀ k : Fin 64, x0 (ix2 p k) = a0 (ix2 P k)) (h1 : x1 (ix2 p (0 : Fin 1)) = a1 (ix2 P (0 : Fin 1)))
    (h2 : ∀ k : Fin 64, x2 (ix2 p k) = a2 (ix2 P k)) (h3 : ∀ k : Fin 64, x3 (ix2 k q) = a3 (ix2 k q))
    (h4 : x4 (ix1 q) = a4 (ix1 q)) (h5 : ∀ k : Fin 64, x5 (ix2 k q) = a5 (ix2 k q)) :
    k0_pay1 (F := Ideal) x0 x1 x2 x3 x5 x4 (ix2 p q) = G a0 a1 a2 a3 a4 a5 (ix2 P q) := by
  rw [pay_eq]
  refine (MeanLayer.tileHidden_apply x0 x1 x2 x3 x5 x4 dot_S4000x64_S64x64_S4000x64_1_0_0_1_n_n rfl rfl rfl rfl rfl rfl
    broadcasts_S4000x1_S4000x64 shapeCasts_S64_S1x64 broadcasts_S1x64_S4000x64 bitsLt_bf16_f32 p q).trans ?_
  show MeanLayer.hidden x0 x1 x2 x3 x5 x4 p q = MeanLayer.hidden a0 a1 a2 a3 a5 a4 P q
  unfold MeanLayer.hidden
  simp only [h0, h1, h2, h3, h4, h5]

/-- The printed index maps over the 25 points: the three row-blocked inputs and the output sit at block row t, column
    block 0; the weights and the bias at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Where a block's element sits in its array -/

theorem emb_0 (t : Fin cfg0.N) (p : Fin 4000) (k : Fin 64) (P : Fin 100000) (hP : P.val = t.val * 4000 + p.val) :
    ((cfg0.win 0).blk t).view.emb (ix2 p k) = (ix2 P k : S100000x64.Idx) := by
  obtain ⟨e0, e1, -⟩ := idx_facts t
  funext a; apply Fin.ext
  match a with
  | ⟨0, _⟩ => show win0_0.index t (0 : Fin 2) * 4000 + 1 * p.val = P.val; omega
  | ⟨1, _⟩ => show win0_0.index t (1 : Fin 2) * 64 + 1 * k.val = k.val; omega

theorem emb_1 (t : Fin cfg0.N) (p : Fin 4000) (P : Fin 100000) (hP : P.val = t.val * 4000 + p.val) :
    ((cfg0.win 1).blk t).view.emb (ix2 p (0 : Fin 1)) = (ix2 P (0 : Fin 1) : S100000x1.Idx) := by
  obtain ⟨-, -, e0, e1, -⟩ := idx_facts t
  funext a; apply Fin.ext
  match a with
  | ⟨0, _⟩ => show win0_1.index t (0 : Fin 2) * 4000 + 1 * p.val = P.val; omega
  | ⟨1, _⟩ => show win0_1.index t (1 : Fin 2) * 1 + 1 * 0 = 0; omega

theorem emb_2 (t : Fin cfg0.N) (p : Fin 4000) (k : Fin 64) (P : Fin 100000) (hP : P.val = t.val * 4000 + p.val) :
    ((cfg0.win 2).blk t).view.emb (ix2 p k) = (ix2 P k : S100000x64.Idx) := by
  obtain ⟨-, -, -, -, e0, e1, -⟩ := idx_facts t
  funext a; apply Fin.ext
  match a with
  | ⟨0, _⟩ => show win0_2.index t (0 : Fin 2) * 4000 + 1 * p.val = P.val; omega
  | ⟨1, _⟩ => show win0_2.index t (1 : Fin 2) * 64 + 1 * k.val = k.val; omega

theorem emb_3 (t : Fin cfg0.N) (k q : Fin 64) :
    ((cfg0.win 3).blk t).view.emb (ix2 k q) = (ix2 k q : S64x64.Idx) := by
  obtain ⟨-, -, -, -, -, -, e0, e1, -⟩ := idx_facts t
  funext a; apply Fin.ext
  match a with
  | ⟨0, _⟩ => show win0_3.index t (0 : Fin 2) * 64 + 1 * k.val = k.val; omega
  | ⟨1, _⟩ => show win0_3.index t (1 : Fin 2) * 64 + 1 * q.val = q.val; omega

theorem emb_4 (t : Fin cfg0.N) (q : Fin 64) :
    ((cfg0.win 4).blk t).view.emb (ix1 q) = (ix1 q : S64.Idx) := by
  obtain ⟨-, -, -, -, -, -, -, -, e0, -⟩ := idx_facts t
  funext a; apply Fin.ext
  match a with
  | ⟨0, _⟩ => show win0_4.index t (0 : Fin 1) * 64 + 1 * q.val = q.val; omega

theorem emb_5 (t : Fin cfg0.N) (k q : Fin 64) :
    ((cfg0.win 5).blk t).view.emb (ix2 k q) = (ix2 k q : S64x64.Idx) := by
  obtain ⟨-, -, -, -, -, -, -, -, -, e0, e1, -⟩ := idx_facts t
  funext a; apply Fin.ext
  match a with
  | ⟨0, _⟩ => show win0_5.index t (0 : Fin 2) * 64 + 1 * k.val = k.val; omega
  | ⟨1, _⟩ => show win0_5.index t (1 : Fin 2) * 64 + 1 * q.val = q.val; omega

theorem emb_6 (t : Fin cfg0.N) (p : Fin 4000) (q : Fin 64) (P : Fin 100000) (hP : P.val = t.val * 4000 + p.val) :
    ((cfg0.win 6).blk t).view.emb (ix2 p q) = (ix2 P q : S100000x64.Idx) := by
  obtain ⟨-, -, -, -, -, -, -, -, -, -, -, e0, e1⟩ := idx_facts t
  funext a; apply Fin.ext
  match a with
  | ⟨0, _⟩ => show win0_6.index t (0 : Fin 2) * 4000 + 1 * p.val = P.val; omega
  | ⟨1, _⟩ => show win0_6.index t (1 : Fin 2) * 64 + 1 * q.val = q.val; omega

/-- WHAT POINT t WRITES BACK is block t of `G` of the arrays as the call finds them. -/
theorem flushed_eq (c : Dev nD) (t : Fin cfg0.N) :
    (dat0 (F := Ideal) V c).flushed 6 t = ((cfg0.win 6).blk t).view.read (Elt Ideal)
      (G (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))) := by
  show (cfg0.win 6).cut (grid0.coords t) ((dat0 (F := Ideal) V c).after 6 t) = _
  rw [after0_6]
  unfold out0_6
  rw [View.canon_unit_zero zero2]
  simp only [View.ld_unit_zero (S := S4000x64) zero2, View.ld_unit_zero (S := S4000x1) zero2,
    View.ld_unit_zero (S := S64x64) zero2, View.ld_unit_zero (S := S64) zero1]
  funext j
  obtain ⟨p, q, rfl⟩ : ∃ (p : Fin 4000) (q : Fin 64), j = ix2 p q := ⟨j 0, j 1, eq_ix2 j⟩
  have ht : t.val < 25 := lt_of_lt_of_eq t.isLt N_0
  obtain ⟨P, hP⟩ : ∃ P : Fin 100000, P.val = t.val * 4000 + p.val := ⟨⟨t.val * 4000 + p.val, by have := p.isLt; omega⟩, rfl⟩
  show k0_pay1 (F := Ideal) (iblk0 V c 0 t) (iblk0 V c 1 t) (iblk0 V c 2 t) (iblk0 V c 3 t) (iblk0 V c 5 t) (iblk0 V c 4 t) (ix2 p q)
    = G (V c (Pipeline.arrRef spec0 0)) (V c (Pipeline.arrRef spec0 1)) (V c (Pipeline.arrRef spec0 2))
        (V c (Pipeline.arrRef spec0 3)) (V c (Pipeline.arrRef spec0 4)) (V c (Pipeline.arrRef spec0 5))
        (((cfg0.win 6).blk t).view.emb (ix2 p q))
  rw [emb_6 t p q P hP]
  refine point_eq (iblk0 V c 0 t) (iblk0 V c 1 t) (iblk0 V c 2 t) (iblk0 V c 3 t) (iblk0 V c 4 t) (iblk0 V c 5 t)
    (V c (Pipeline.arrRef spec0 0)) (V c (Pipeline.arrRef spec0 1)) (V c (Pipeline.arrRef spec0 2))
    (V c (Pipeline.arrRef spec0 3)) (V c (Pipeline.arrRef spec0 4)) (V c (Pipeline.arrRef spec0 5)) P p q ?_ ?_ ?_ ?_ ?_ ?_
  · intro k
    show V c (Pipeline.arrRef spec0 0) (((cfg0.win 0).blk t).view.emb (ix2 p k)) = _
    rw [emb_0 t p k P hP]
  · show V c (Pipeline.arrRef spec0 1) (((cfg0.win 1).blk t).view.emb (ix2 p (0 : Fin 1))) = _
    rw [emb_1 t p P hP]
  · intro k
    show V c (Pipeline.arrRef spec0 2) (((cfg0.win 2).blk t).view.emb (ix2 p k)) = _
    rw [emb_2 t p k P hP]
  · intro k
    show V c (Pipeline.arrRef spec0 3) (((cfg0.win 3).blk t).view.emb (ix2 k q)) = _
    rw [emb_3 t k q]
  · show V c (Pipeline.arrRef spec0 4) (((cfg0.win 4).blk t).view.emb (ix1 q)) = _
    rw [emb_4 t q]
  · intro k
    show V c (Pipeline.arrRef spec0 5) (((cfg0.win 5).blk t).view.emb (ix2 k q)) = _
    rw [emb_5 t k q]

/-- An index of the output array is in point t's block iff each coordinate is in the block's range on its axis. -/
theorem mem_blk (t : Fin cfg0.N) (i : S100000x64.Idx) :
    i ∈ ((cfg0.win 6).blk t).view.set ↔ ∀ a : Fin 2, win0_6.index t a * S4000x64.size a ≤ (i a).val
      ∧ (i a).val < win0_6.index t a * S4000x64.size a + S4000x64.size a := by
  show i ∈ ((View.whole main_v26).slice (win0_6.rect t)).set ↔ _
  rw [View.set_slice_whole, Rect.mem_set_unit]
  exact Iff.rfl

/-- Every row of the output is in the block of the point that is its quotient by 4000. -/
theorem cover (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  obtain ⟨t, htv⟩ : ∃ t : Fin cfg0.N, t.val = (i 0).val / 4000 :=
    ⟨⟨(i 0).val / 4000, lt_of_lt_of_eq (by omega : (i 0).val / 4000 < 25) N_0.symm⟩, rfl⟩
  obtain ⟨-, -, -, -, -, -, -, -, -, -, -, e0, e1⟩ := idx_facts t
  refine ⟨t, flush0_6 t, ?_⟩
  rw [mem_blk]
  intro a
  match a with
  | ⟨0, _⟩ =>
    show win0_6.index t (0 : Fin 2) * 4000 ≤ (i 0).val ∧ (i 0).val < win0_6.index t (0 : Fin 2) * 4000 + 4000
    omega
  | ⟨1, _⟩ =>
    show win0_6.index t (1 : Fin 2) * 64 ≤ (i 1).val ∧ (i 1).val < win0_6.index t (1 : Fin 2) * 64 + 64
    omega

/-- THE ARRAY after the call: `G` of the arrays the call found. -/
theorem final (c : Dev nD) :
    (dat0 (F := Ideal) V c).arrAt 6 cfg0.N
      = G (V c (Pipeline.arrRef spec0 0)) (V c (Pipeline.arrRef spec0 1)) (V c (Pipeline.arrRef spec0 2))
          (V c (Pipeline.arrRef spec0 3)) (V c (Pipeline.arrRef spec0 4)) (V c (Pipeline.arrRef spec0 5)) :=
  (dat0 (F := Ideal) V c).arrAt_eq_of_cover 6 _ (fun t _ => flushed_eq V c t) cover

end Cert.KernelIdeal.FirstLayer

end
-- ==== Proof.HostFirst.lean ====
/-
  The idealized kernel program up to the end of its first pallas_call: what each buffer the call reads holds when
  the call starts, and what the call leaves.

  The first stretch of host operations cuts the edge list into its source row and its destination row, counts each
  node's incoming edges by a scatter-add of ones, clamps the count below by 1 and takes the reciprocal, gathers the
  feature rows at the (wrapped) sources and scatter-adds them at the destinations, and transposes the two first-layer
  weight matrices (the narrowing that follows is a change of format: the identity on extended reals). Each of these
  buffers is read back as the SAME composition of operations the reference program applies to the same arguments, so
  it is stated with the reference's own stage functions; the gather and the scatter are compared as whole terms and
  never opened. The call then leaves `FirstLayer.G` of those arrays in its output buffer, and every buffer it does
  not write as it was.
-/
import proofs.«142700_j90829968376535_2_alg».proof.Proof.Gen.KernelIdeal.Frame
import proofs.«142700_j90829968376535_2_alg».proof.Proof.Gen.ReferenceIdeal.Read
import proofs.«142700_j90829968376535_2_alg».proof.Proof.FirstLayer
import Idealize.ShloMosaic.Lib.StableHlo.Run
import Idealize.ShloMosaic.PureOps.Ideal

set_option maxRecDepth 16384
set_option maxHeartbeats 2000000

noncomputable section

namespace Cert.KernelIdeal.HostFirst

open Cert.KernelIdeal Cert.KernelIdeal.Gen Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## On entry to the first call -/

theorem W1_v1 : W1 (F := Ideal) m ρ c (Proc.devRef .tc main_v1) = val_main_v1 (F := Ideal) (m ((c.tc : Thread nD τ).loc main_arg1)) := by
  show StableHlo.after hostOps0 (W0 m ρ c) (Proc.devRef .tc main_v1) = _
  after_results_simp
  rfl

theorem W1_v3 : W1 (F := Ideal) m ρ c (Proc.devRef .tc main_v3) = val_main_v3 (F := Ideal) (m ((c.tc : Thread nD τ).loc main_arg1)) := by
  show StableHlo.after hostOps0 (W0 m ρ c) (Proc.devRef .tc main_v3) = _
  after_results_simp
  rfl

theorem W1_v11 : W1 (F := Ideal) m ρ c (Proc.devRef .tc main_v11) = Host.divf (F := Ideal) (φ := .f32) (val_main_v18 (F := Ideal)) (val_main_v19 (F := Ideal) (m ((c.tc : Thread nD τ).loc main_arg1))) := by
  show StableHlo.after hostOps0 (W0 m ρ c) (Proc.devRef .tc main_v11) = _
  after_results_simp
  rfl

theorem W1_v21 : W1 (F := Ideal) m ρ c (Proc.devRef .tc main_v21) = val_main_v13 (F := Ideal) (m ((c.tc : Thread nD τ).loc main_arg0)) (m ((c.tc : Thread nD τ).loc main_arg1)) := by
  show StableHlo.after hostOps0 (W0 m ρ c) (Proc.devRef .tc main_v21) = _
  after_results_simp
  rfl

theorem W1_v23 : W1 (F := Ideal) m ρ c (Proc.devRef .tc main_v23) = val_main_v22 (F := Ideal) (m ((c.tc : Thread nD τ).loc main_arg2)) := by
  show StableHlo.after hostOps0 (W0 m ρ c) (Proc.devRef .tc main_v23) = _
  after_results_simp
  rfl

theorem W1_v25 : W1 (F := Ideal) m ρ c (Proc.devRef .tc main_v25) = val_main_v27 (F := Ideal) (m ((c.tc : Thread nD τ).loc main_arg4)) := by
  show StableHlo.after hostOps0 (W0 m ρ c) (Proc.devRef .tc main_v25) = _
  after_results_simp
  rfl

theorem W1_arg0 : W1 (F := Ideal) m ρ c (Proc.devRef .tc main_arg0) = (m ((c.tc : Thread nD τ).loc main_arg0)) := by
  show StableHlo.after hostOps0 (W0 m ρ c) (Proc.devRef .tc main_arg0) = _
  after_results_simp <;> rfl

theorem W1_arg3 : W1 (F := Ideal) m ρ c (Proc.devRef .tc main_arg3) = (m ((c.tc : Thread nD τ).loc main_arg3)) := by
  show StableHlo.after hostOps0 (W0 m ρ c) (Proc.devRef .tc main_arg3) = _
  after_results_simp <;> rfl

theorem W1_arg5 : W1 (F := Ideal) m ρ c (Proc.devRef .tc main_arg5) = (m ((c.tc : Thread nD τ).loc main_arg5)) := by
  show StableHlo.after hostOps0 (W0 m ρ c) (Proc.devRef .tc main_arg5) = _
  after_results_simp <;> rfl

theorem W1_arg6 : W1 (F := Ideal) m ρ c (Proc.devRef .tc main_arg6) = (m ((c.tc : Thread nD τ).loc main_arg6)) := by
  show StableHlo.after hostOps0 (W0 m ρ c) (Proc.devRef .tc main_arg6) = _
  after_results_simp <;> rfl

theorem W1_arg7 : W1 (F := Ideal) m ρ c (Proc.devRef .tc main_arg7) = (m ((c.tc : Thread nD τ).loc main_arg7)) := by
  show StableHlo.after hostOps0 (W0 m ρ c) (Proc.devRef .tc main_arg7) = _
  after_results_simp <;> rfl

theorem W1_arg8 : W1 (F := Ideal) m ρ c (Proc.devRef .tc main_arg8) = (m ((c.tc : Thread nD τ).loc main_arg8)) := by
  show StableHlo.after hostOps0 (W0 m ρ c) (Proc.devRef .tc main_arg8) = _
  after_results_simp <;> rfl

theorem W1_arg9 : W1 (F := Ideal) m ρ c (Proc.devRef .tc main_arg9) = (m ((c.tc : Thread nD τ).loc main_arg9)) := by
  show StableHlo.after hostOps0 (W0 m ρ c) (Proc.devRef .tc main_arg9) = _
  after_results_simp <;> rfl

/-! ## On exit from the first call -/

/-- A buffer that is none of the call's arrays is as it was on entry. -/
theorem W2_keep (b : Ref sig .tc) (hb : ∀ w, Pipeline.arrRef spec0 w ≠ b) :
    W2 (F := Ideal) m ρ c (Proc.devRef .tc b) = W1 (F := Ideal) m ρ c (Proc.devRef .tc b) := W2_of_ne m ρ c b hb

theorem W2_v1 : W2 (F := Ideal) m ρ c (Proc.devRef .tc main_v1) = val_main_v1 (F := Ideal) (m ((c.tc : Thread nD τ).loc main_arg1)) :=
  (W2_keep m ρ c main_v1 (by decide)).trans (W1_v1 m ρ c)
theorem W2_v3 : W2 (F := Ideal) m ρ c (Proc.devRef .tc main_v3) = val_main_v3 (F := Ideal) (m ((c.tc : Thread nD τ).loc main_arg1)) :=
  (W2_keep m ρ c main_v3 (by decide)).trans (W1_v3 m ρ c)
theorem W2_arg5 : W2 (F := Ideal) m ρ c (Proc.devRef .tc main_arg5) = (m ((c.tc : Thread nD τ).loc main_arg5)) :=
  (W2_keep m ρ c main_arg5 (by decide)).trans (W1_arg5 m ρ c)
theorem W2_arg6 : W2 (F := Ideal) m ρ c (Proc.devRef .tc main_arg6) = (m ((c.tc : Thread nD τ).loc main_arg6)) :=
  (W2_keep m ρ c main_arg6 (by decide)).trans (W1_arg6 m ρ c)
theorem W2_arg7 : W2 (F := Ideal) m ρ c (Proc.devRef .tc main_arg7) = (m ((c.tc : Thread nD τ).loc main_arg7)) :=
  (W2_keep m ρ c main_arg7 (by decide)).trans (W1_arg7 m ρ c)
theorem W2_arg8 : W2 (F := Ideal) m ρ c (Proc.devRef .tc main_arg8) = (m ((c.tc : Thread nD τ).loc main_arg8)) :=
  (W2_keep m ρ c main_arg8 (by decide)).trans (W1_arg8 m ρ c)
theorem W2_arg9 : W2 (F := Ideal) m ρ c (Proc.devRef .tc main_arg9) = (m ((c.tc : Thread nD τ).loc main_arg9)) :=
  (W2_keep m ρ c main_arg9 (by decide)).trans (W1_arg9 m ρ c)

/-- The reciprocal degree column is an array the call only reads. -/
theorem W2_v11 : W2 (F := Ideal) m ρ c (Proc.devRef .tc main_v11)
    = Host.divf (F := Ideal) (φ := .f32) (val_main_v18 (F := Ideal)) (val_main_v19 (F := Ideal) (m ((c.tc : Thread nD τ).loc main_arg1))) :=
  (W2_arr m ρ c 1).trans (((dat0 (V1 m ρ) c).arrAt_in 1 rfl _).trans ((A_eq0 (V1 m ρ) c 1).trans (W1_v11 m ρ c)))

/-- THE FIRST LAYER: the call's output buffer holds the layer of the neighbour sums, the reciprocal degrees, the node
    features, the transposed weights and the bias. -/
theorem W2_v26 : W2 (F := Ideal) m ρ c (Proc.devRef .tc main_v26)
    = FirstLayer.G (val_main_v13 (F := Ideal) (m ((c.tc : Thread nD τ).loc main_arg0)) (m ((c.tc : Thread nD τ).loc main_arg1)))
        (Host.divf (F := Ideal) (φ := .f32) (val_main_v18 (F := Ideal)) (val_main_v19 (F := Ideal) (m ((c.tc : Thread nD τ).loc main_arg1))))
        (m ((c.tc : Thread nD τ).loc main_arg0)) (val_main_v22 (F := Ideal) (m ((c.tc : Thread nD τ).loc main_arg2))) (m ((c.tc : Thread nD τ).loc main_arg3)) (val_main_v27 (F := Ideal) (m ((c.tc : Thread nD τ).loc main_arg4))) :=
  (W2_arr m ρ c 6).trans ((FirstLayer.final (V1 m ρ) c).trans (by
    show FirstLayer.G (W1 (F := Ideal) m ρ c (Proc.devRef .tc main_v21)) (W1 (F := Ideal) m ρ c (Proc.devRef .tc main_v11))
      (W1 (F := Ideal) m ρ c (Proc.devRef .tc main_arg0)) (W1 (F := Ideal) m ρ c (Proc.devRef .tc main_v23))
      (W1 (F := Ideal) m ρ c (Proc.devRef .tc main_arg3)) (W1 (F := Ideal) m ρ c (Proc.devRef .tc main_v25)) = _
    rw [W1_v21 m ρ c, W1_v11 m ρ c, W1_arg0 m ρ c, W1_v23 m ρ c, W1_arg3 m ρ c, W1_v25 m ρ c]))

end Cert.KernelIdeal.HostFirst

end
-- ==== Proof.HeadLayer.lean ====
/-
  The second pallas_call's output array as one function of the arrays the call finds.

  The call runs over 100 grid points; point t reads rows 1000·t … 1000·t + 999 of the second neighbour-sum array, of the
  reciprocal degree column and of the first layer's output, reads the two layer weights, the layer bias, the read-out
  weights and the read-out bias whole at every point, and writes rows 1000·t … 1000·t + 999 of the [100000, 1000] result.
  The body computes the second layer's rectified tile and at once contracts it against the read-out weights, so row p
  of the stored tile depends on row p of the three row blocks only: the tile is the restriction to its rows of ONE
  function of the whole arrays, `MeanLayer.head`; the 100 row blocks cover the result. The entry contents `V` are a
  parameter.
-/
import proofs.«142700_j90829968376535_2_alg».proof.Proof.Gen.KernelIdeal.Frame
import proofs.«142700_j90829968376535_2_alg».proof.Proof.LibMeanLayerTile
import Idealize.ShloMosaic.Lib.Pipeline.Value

set_option maxRecDepth 16384

noncomputable section

namespace Cert.KernelIdeal.HeadLayer

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The result array as a function of the eight input arrays (neighbour sums, reciprocal degrees, first-layer output,
    left weights, layer bias, right weights, read-out weights, read-out bias — the order of the call's operands). -/
def G (a0 : S100000x64.Idx → Elt Ideal .f32) (a1 : S100000x1.Idx → Elt Ideal .f32) (a2 : S100000x64.Idx → Elt Ideal .f32)
    (a3 : S64x64.Idx → Elt Ideal .bf16) (a4 : S64.Idx → Elt Ideal .f32) (a5 : S64x64.Idx → Elt Ideal .bf16)
    (a6 : S64x1000.Idx → Elt Ideal .bf16) (a7 : S1000.Idx → Elt Ideal .f32) : S100000x1000.Idx → Elt Ideal .f32 :=
  MeanLayer.head a0 a1 a2 a3 a5 a4 a6 a7

/-- The body's stored value is the read-out tile of the second layer's rectified tile. -/
theorem pay_eq (v0 : Vec Ideal S1000x64 .f32) (v2 : Vec Ideal S1000x1 .f32) (v7 : Vec Ideal S1000x64 .f32)
    (v10 v12 : Vec Ideal S64x64 .bf16) (v16 : Vec Ideal S64 .f32) (v24 : Vec Ideal S64x1000 .bf16) (v27 : Vec Ideal S1000 .f32) :
    k1_pay1 (F := Ideal) v0 v2 v7 v10 v12 v16 v24 v27
      = MeanLayer.tileReadout
          (MeanLayer.tileHidden v0 v2 v7 v10 v12 v16 dot_S1000x64_S64x64_S1000x64_1_0_0_1_n_n
            broadcasts_S1000x1_S1000x64 shapeCasts_S64_S1x64 broadcasts_S1x64_S1000x64 bitsLt_bf16_f32)
          v24 v27 dot_S1000x64_S64x1000_S1000x1000_1_0_0_1_n_n shapeCasts_S1000_S1x1000 broadcasts_S1x1000_S1000x1000
          bitsLt_bf16_f32 := by
  unfold k1_pay1 MeanLayer.tileReadout MeanLayer.tileHidden
  simp only [shapeCast_self]

/-- One stored entry: entry (p, r) of the tile computed from blocks that are rows `P` of the arrays is entry (P, r) of `G`. -/
theorem point_eq (x0 : Vec Ideal S1000x64 .f32) (x1 : Vec Ideal S1000x1 .f32) (x2 : Vec Ideal S1000x64 .f32)
    (x3 : Vec Ideal S64x64 .bf16) (x4 : Vec Ideal S64 .f32) (x5 : Vec Ideal S64x64 .bf16)
    (x6 : Vec Ideal S64x1000 .bf16) (x7 : Vec Ideal S1000 .f32)
    (a0 : S100000x64.Idx → Elt Ideal .f32) (a1 : S100000x1.Idx → Elt Ideal .f32) (a2 : S100000x64.Idx → Elt Ideal .f32)
    (a3 : S64x64.Idx → Elt Ideal .bf16) (a4 : S64.Idx → Elt Ideal .f32) (a5 : S64x64.Idx → Elt Ideal .bf16)
    (a6 : S64x1000.Idx → Elt Ideal .bf16) (a7 : S1000.Idx → Elt Ideal .f32)
    (P : Fin 100000) (p : Fin 1000) (r : Fin 1000)
    (h0 : ∀ k : Fin 64, x0 (ix2 p k) = a0 (ix2 P k)) (h1 : x1 (ix2 p (0 : Fin 1)) = a1 (ix2 P (0 : Fin 1)))
    (h2 : ∀ k : Fin 64, x2 (ix2 p k) = a2 (ix2 P k)) (h3 : ∀ k j : Fin 64, x3 (ix2 k j) = a3 (ix2 k j))
    (h4 : ∀ j : Fin 64, x4 (ix1 j) = a4 (ix1 j)) (h5 : ∀ k j : Fin 64, x5 (ix2 k j) = a5 (ix2 k j))
    (h6 : ∀ j : Fin 64, x6 (ix2 j r) = a6 (ix2 j r)) (h7 : x7 (ix1 r) = a7 (ix1 r)) :
    k1_pay1 (F := Ideal) x0 x1 x2 x3 x5 x4 x6 x7 (ix2 p r) = G a0 a1 a2 a3 a4 a5 a6 a7 (ix2 P r) := by
  rw [pay_eq]
  refine (MeanLayer.tileReadout_apply _ x6 x7 dot_S1000x64_S64x1000_S1000x1000_1_0_0_1_n_n rfl rfl rfl rfl rfl rfl
    shapeCasts_S1000_S1x1000 broadcasts_S1x1000_S1000x1000 bitsLt_bf16_f32 p r).trans ?_
  show (∑ j : Fin 64, MeanLayer.tileHidden x0 x1 x2 x3 x5 x4 dot_S1000x64_S64x64_S1000x64_1_0_0_1_n_n
          broadcasts_S1000x1_S1000x64 shapeCasts_S64_S1x64 broadcasts_S1x64_S1000x64 bitsLt_bf16_f32 (ix2 p j) * x6 (ix2 j r))
        + x7 (ix1 r)
      = (∑ j : Fin 64, MeanLayer.hidden a0 a1 a2 a3 a5 a4 P j * a6 (ix2 j r)) + a7 (ix1 r)
  rw [h7]
  refine congrArg (· + a7 (ix1 r)) (Finset.sum_congr rfl fun j _ => ?_)
  rw [h6 j, MeanLayer.tileHidden_apply x0 x1 x2 x3 x5 x4 dot_S1000x64_S64x64_S1000x64_1_0_0_1_n_n rfl rfl rfl rfl rfl rfl
    broadcasts_S1000x1_S1000x64 shapeCasts_S64_S1x64 broadcasts_S1x64_S1000x64 bitsLt_bf16_f32 p j]
  refine congrArg (· * a6 (ix2 j r)) ?_
  unfold MeanLayer.hidden
  simp only [h0, h1, h2, h3, h4, h5]

/-- The printed index maps over the 100 points: the three row-blocked inputs and the result sit at block row t, column
    block 0; the weights and the biases at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 1) = 0
    ∧ win1_8.index t (0 : Fin 2) = t.val ∧ win1_8.index t (1 : Fin 2) = 0 :=
  (by decide +kernel : ∀ t : Fin grid1.N, _)

/-! ## Where a block's element sits in its array -/

theorem emb_0 (t : Fin cfg1.N) (p : Fin 1000) (k : Fin 64) (P : Fin 100000) (hP : P.val = t.val * 1000 + p.val) :
    ((cfg1.win 0).blk t).view.emb (ix2 p k) = (ix2 P k : S100000x64.Idx) := by
  obtain ⟨e0, e1, -⟩ := idx_facts t
  funext a; apply Fin.ext
  match a with
  | ⟨0, _⟩ => show win1_0.index t (0 : Fin 2) * 1000 + 1 * p.val = P.val; omega
  | ⟨1, _⟩ => show win1_0.index t (1 : Fin 2) * 64 + 1 * k.val = k.val; omega

theorem emb_1 (t : Fin cfg1.N) (p : Fin 1000) (P : Fin 100000) (hP : P.val = t.val * 1000 + p.val) :
    ((cfg1.win 1).blk t).view.emb (ix2 p (0 : Fin 1)) = (ix2 P (0 : Fin 1) : S100000x1.Idx) := by
  obtain ⟨-, -, e0, e1, -⟩ := idx_facts t
  funext a; apply Fin.ext
  match a with
  | ⟨0, _⟩ => show win1_1.index t (0 : Fin 2) * 1000 + 1 * p.val = P.val; omega
  | ⟨1, _⟩ => show win1_1.index t (1 : Fin 2) * 1 + 1 * 0 = 0; omega

theorem emb_2 (t : Fin cfg1.N) (p : Fin 1000) (k : Fin 64) (P : Fin 100000) (hP : P.val = t.val * 1000 + p.val) :
    ((cfg1.win 2).blk t).view.emb (ix2 p k) = (ix2 P k : S100000x64.Idx) := by
  obtain ⟨-, -, -, -, e0, e1, -⟩ := idx_facts t
  funext a; apply Fin.ext
  match a with
  | ⟨0, _⟩ => show win1_2.index t (0 : Fin 2) * 1000 + 1 * p.val = P.val; omega
  | ⟨1, _⟩ => show win1_2.index t (1 : Fin 2) * 64 + 1 * k.val = k.val; omega

theorem emb_3 (t : Fin cfg1.N) (k j : Fin 64) :
    ((cfg1.win 3).blk t).view.emb (ix2 k j) = (ix2 k j : S64x64.Idx) := by
  obtain ⟨-, -, -, -, -, -, e0, e1, -⟩ := idx_facts t
  funext a; apply Fin.ext
  match a with
  | ⟨0, _⟩ => show win1_3.index t (0 : Fin 2) * 64 + 1 * k.val = k.val; omega
  | ⟨1, _⟩ => show win1_3.index t (1 : Fin 2) * 64 + 1 * j.val = j.val; omega

theorem emb_4 (t : Fin cfg1.N) (j : Fin 64) :
    ((cfg1.win 4).blk t).view.emb (ix1 j) = (ix1 j : S64.Idx) := by
  obtain ⟨-, -, -, -, -, -, -, -, e0, -⟩ := idx_facts t
  funext a; apply Fin.ext
  match a with
  | ⟨0, _⟩ => show win1_4.index t (0 : Fin 1) * 64 + 1 * j.val = j.val; omega

theorem emb_5 (t : Fin cfg1.N) (k j : Fin 64) :
    ((cfg1.win 5).blk t).view.emb (ix2 k j) = (ix2 k j : S64x64.Idx) := by
  obtain ⟨-, -, -, -, -, -, -, -, -, e0, e1, -⟩ := idx_facts t
  funext a; apply Fin.ext
  match a with
  | ⟨0, _⟩ => show win1_5.index t (0 : Fin 2) * 64 + 1 * k.val = k.val; omega
  | ⟨1, _⟩ => show win1_5.index t (1 : Fin 2) * 64 + 1 * j.val = j.val; omega

theorem emb_6 (t : Fin cfg1.N) (j : Fin 64) (r : Fin 1000) :
    ((cfg1.win 6).blk t).view.emb (ix2 j r) = (ix2 j r : S64x1000.Idx) := by
  obtain ⟨-, -, -, -, -, -, -, -, -, -, -, e0, e1, -⟩ := idx_facts t
  funext a; apply Fin.ext
  match a with
  | ⟨0, _⟩ => show win1_6.index t (0 : Fin 2) * 64 + 1 * j.val = j.val; omega
  | ⟨1, _⟩ => show win1_6.index t (1 : Fin 2) * 1000 + 1 * r.val = r.val; omega

theorem emb_7 (t : Fin cfg1.N) (r : Fin 1000) :
    ((cfg1.win 7).blk t).view.emb (ix1 r) = (ix1 r : S1000.Idx) := by
  obtain ⟨-, -, -, -, -, -, -, -, -, -, -, -, -, e0, -⟩ := idx_facts t
  funext a; apply Fin.ext
  match a with
  | ⟨0, _⟩ => show win1_7.index t (0 : Fin 1) * 1000 + 1 * r.val = r.val; omega

theorem emb_8 (t : Fin cfg1.N) (p : Fin 1000) (r : Fin 1000) (P : Fin 100000) (hP : P.val = t.val * 1000 + p.val) :
    ((cfg1.win 8).blk t).view.emb (ix2 p r) = (ix2 P r : S100000x1000.Idx) := by
  obtain ⟨-, -, -, -, -, -, -, -, -, -, -, -, -, -, e0, e1⟩ := idx_facts t
  funext a; apply Fin.ext
  match a with
  | ⟨0, _⟩ => show win1_8.index t (0 : Fin 2) * 1000 + 1 * p.val = P.val; omega
  | ⟨1, _⟩ => show win1_8.index t (1 : Fin 2) * 1000 + 1 * r.val = r.val; omega

end Cert.KernelIdeal.HeadLayer

end
-- ==== Proof.HeadLayerArray.lean ====
/-
  The second pallas_call's result array: from what each grid point writes back to the whole array.

  Point t's write-back is block t of `HeadLayer.G` of the arrays the call finds (each block's element read where the
  result's rectangle says); the 100 row blocks cover the result, so after the call the array is `G` of those arrays.
-/
import proofs.«142700_j90829968376535_2_alg».proof.Proof.HeadLayer

set_option maxRecDepth 16384

noncomputable section

namespace Cert.KernelIdeal.HeadLayer

open Cert.KernelIdeal Cert.KernelIdeal.Gen
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

set_option maxHeartbeats 1600000 in
/-- WHAT POINT t WRITES BACK is block t of `G` of the arrays as the call finds them. -/
theorem flushed_eq (c : Dev nD) (t : Fin cfg1.N) :
    (dat1 (F := Ideal) V c).flushed 8 t = ((cfg1.win 8).blk t).view.read (Elt Ideal)
      (G (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) (V c (Pipeline.arrRef spec1 7))) := by
  show (cfg1.win 8).cut (grid1.coords t) ((dat1 (F := Ideal) V c).after 8 t) = _
  rw [after1_8]
  unfold out1_8
  rw [View.canon_unit_zero zero2]
  simp only [View.ld_unit_zero (S := S1000x64) zero2, View.ld_unit_zero (S := S1000x1) zero2,
    View.ld_unit_zero (S := S64x64) zero2, View.ld_unit_zero (S := S64) zero1,
    View.ld_unit_zero (S := S64x1000) zero2, View.ld_unit_zero (S := S1000) zero1]
  funext j
  obtain ⟨p, r, rfl⟩ : ∃ (p : Fin 1000) (r : Fin 1000), j = ix2 p r := ⟨j 0, j 1, eq_ix2 j⟩
  have ht : t.val < 100 := lt_of_lt_of_eq t.isLt N_1
  obtain ⟨P, hP⟩ : ∃ P : Fin 100000, P.val = t.val * 1000 + p.val := ⟨⟨t.val * 1000 + p.val, by have := p.isLt; omega⟩, rfl⟩
  show k1_pay1 (F := Ideal) (iblk1 V c 0 t) (iblk1 V c 1 t) (iblk1 V c 2 t) (iblk1 V c 3 t) (iblk1 V c 5 t) (iblk1 V c 4 t)
      (iblk1 V c 6 t) (iblk1 V c 7 t) (ix2 p r)
    = G (V c (Pipeline.arrRef spec1 0)) (V c (Pipeline.arrRef spec1 1)) (V c (Pipeline.arrRef spec1 2))
        (V c (Pipeline.arrRef spec1 3)) (V c (Pipeline.arrRef spec1 4)) (V c (Pipeline.arrRef spec1 5))
        (V c (Pipeline.arrRef spec1 6)) (V c (Pipeline.arrRef spec1 7))
        (((cfg1.win 8).blk t).view.emb (ix2 p r))
  rw [emb_8 t p r P hP]
  refine point_eq (iblk1 V c 0 t) (iblk1 V c 1 t) (iblk1 V c 2 t) (iblk1 V c 3 t) (iblk1 V c 4 t) (iblk1 V c 5 t)
    (iblk1 V c 6 t) (iblk1 V c 7 t)
    (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    (V c (Pipeline.arrRef spec1 6)) (V c (Pipeline.arrRef spec1 7)) P p r ?_ ?_ ?_ ?_ ?_ ?_ ?_ ?_
  · intro k
    show V c (Pipeline.arrRef spec1 0) (((cfg1.win 0).blk t).view.emb (ix2 p k)) = _
    rw [emb_0 t p k P hP]
  · show V c (Pipeline.arrRef spec1 1) (((cfg1.win 1).blk t).view.emb (ix2 p (0 : Fin 1))) = _
    rw [emb_1 t p P hP]
  · intro k
    show V c (Pipeline.arrRef spec1 2) (((cfg1.win 2).blk t).view.emb (ix2 p k)) = _
    rw [emb_2 t p k P hP]
  · intro k j
    show V c (Pipeline.arrRef spec1 3) (((cfg1.win 3).blk t).view.emb (ix2 k j)) = _
    rw [emb_3 t k j]
  · intro j
    show V c (Pipeline.arrRef spec1 4) (((cfg1.win 4).blk t).view.emb (ix1 j)) = _
    rw [emb_4 t j]
  · intro k j
    show V c (Pipeline.arrRef spec1 5) (((cfg1.win 5).blk t).view.emb (ix2 k j)) = _
    rw [emb_5 t k j]
  · intro j
    show V c (Pipeline.arrRef spec1 6) (((cfg1.win 6).blk t).view.emb (ix2 j r)) = _
    rw [emb_6 t j r]
  · show V c (Pipeline.arrRef spec1 7) (((cfg1.win 7).blk t).view.emb (ix1 r)) = _
    rw [emb_7 t r]

/-- An index of the result array is in point t's block iff each coordinate is in the block's range on its axis. -/
theorem mem_blk (t : Fin cfg1.N) (i : S100000x1000.Idx) :
    i ∈ ((cfg1.win 8).blk t).view.set ↔ ∀ a : Fin 2, win1_8.index t a * S1000x1000.size a ≤ (i a).val
      ∧ (i a).val < win1_8.index t a * S1000x1000.size a + S1000x1000.size a := by
  show i ∈ ((View.whole main_v43).slice (win1_8.rect t)).set ↔ _
  rw [View.set_slice_whole, Rect.mem_set_unit]
  exact Iff.rfl

/-- Every row of the result is in the block of the point that is its quotient by 1000. -/
theorem cover (i : S100000x1000.Idx) :
    ∃ t : Fin cfg1.N, (cfg1.win 8).flush t = true ∧ i ∈ ((cfg1.win 8).blk t).view.set := by
  have hi0 : (i 0).val < 100000 := (i 0).isLt
  have hi1 : (i 1).val < 1000 := (i 1).isLt
  obtain ⟨t, htv⟩ : ∃ t : Fin cfg1.N, t.val = (i 0).val / 1000 :=
    ⟨⟨(i 0).val / 1000, lt_of_lt_of_eq (by omega : (i 0).val / 1000 < 100) N_1.symm⟩, rfl⟩
  obtain ⟨-, -, -, -, -, -, -, -, -, -, -, -, -, -, e0, e1⟩ := idx_facts t
  refine ⟨t, flush1_8 t, ?_⟩
  rw [mem_blk]
  intro a
  match a with
  | ⟨0, _⟩ =>
    show win1_8.index t (0 : Fin 2) * 1000 ≤ (i 0).val ∧ (i 0).val < win1_8.index t (0 : Fin 2) * 1000 + 1000
    omega
  | ⟨1, _⟩ =>
    show win1_8.index t (1 : Fin 2) * 1000 ≤ (i 1).val ∧ (i 1).val < win1_8.index t (1 : Fin 2) * 1000 + 1000
    omega

/-- THE ARRAY after the call: `G` of the arrays the call found. -/
theorem final (c : Dev nD) :
    (dat1 (F := Ideal) V c).arrAt 8 cfg1.N
      = G (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5))
          (V c (Pipeline.arrRef spec1 6)) (V c (Pipeline.arrRef spec1 7)) :=
  (dat1 (F := Ideal) V c).arrAt_eq_of_cover 8 _ (fun t _ => flushed_eq V c t) cover

end Cert.KernelIdeal.HeadLayer

end
-- ==== Proof.HostSecond.lean ====
/-
  The idealized kernel program from the end of its first pallas_call to its return.

  The second stretch of host operations gathers the first layer's rows at the same (wrapped) sources and scatter-adds
  them at the same destinations — the index rows are the buffers the first stretch computed, which the first call left
  alone — and transposes the second layer's two weight matrices and the read-out matrix (the narrowing that follows is
  the identity on extended reals). Each buffer the second call reads is stated with the reference's own stage
  functions; the first layer's array stays a name (`hid1`), and the gather and scatter over it are compared as whole
  terms. The second call then leaves `HeadLayer.G` of those arrays in the result buffer.
-/
import proofs.«142700_j90829968376535_2_alg».proof.Proof.HostFirst
import proofs.«142700_j90829968376535_2_alg».proof.Proof.HeadLayerArray

set_option maxRecDepth 16384
set_option maxHeartbeats 2000000

noncomputable section

namespace Cert.KernelIdeal.HostSecond

open Cert.KernelIdeal Cert.KernelIdeal.Gen Cert.KernelIdeal.HostFirst Cert.ReferenceIdeal.Read
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The first layer's array, as the first call leaves it. -/
def hid1 : S100000x64.Idx → Elt Ideal .f32 :=
  FirstLayer.G (val_main_v13 (F := Ideal) (m ((c.tc : Thread nD τ).loc main_arg0)) (m ((c.tc : Thread nD τ).loc main_arg1))) (Host.divf (F := Ideal) (φ := .f32) (val_main_v18 (F := Ideal)) (val_main_v19 (F := Ideal) (m ((c.tc : Thread nD τ).loc main_arg1))))
    (m ((c.tc : Thread nD τ).loc main_arg0)) (val_main_v22 (F := Ideal) (m ((c.tc : Thread nD τ).loc main_arg2))) (m ((c.tc : Thread nD τ).loc main_arg3)) (val_main_v27 (F := Ideal) (m ((c.tc : Thread nD τ).loc main_arg4)))

theorem W2_hid1 : W2 (F := Ideal) m ρ c (Proc.devRef .tc main_v26) = hid1 m c := W2_v26 m ρ c

/-! ## On entry to the second call -/

/-- The second layer's neighbour sums: the first layer's rows gathered and scatter-added over the same index rows. -/
theorem W3_v36 : W3 (F := Ideal) m ρ c (Proc.devRef .tc main_v36) = Host.scatterAdd (F := Ideal) (φ := .f32) Cert.ReferenceIdeal.scatter_S100000x64_S1600000x1_S1600000x64_1_0_0_1
      (val_main_v11 (F := Ideal)) (val_main_v12 (F := Ideal) (m ((c.tc : Thread nD τ).loc main_arg1)))
      (Host.gather Cert.ReferenceIdeal.gather_S100000x64_S1600000x1_S1600000x64_1_0_n_n_0_1_164 (hid1 m c)
        (val_main_v9 (F := Ideal) (m ((c.tc : Thread nD τ).loc main_arg1)))) := by
  show StableHlo.after hostOps1 (W2 m ρ c) (Proc.devRef .tc main_v36) = _
  after_results_simp
  rw [W2_v1 m ρ c, W2_v3 m ρ c, W2_hid1 m ρ c]
  rfl

theorem W3_v11 : W3 (F := Ideal) m ρ c (Proc.devRef .tc main_v11) = (Host.divf (F := Ideal) (φ := .f32) (val_main_v18 (F := Ideal)) (val_main_v19 (F := Ideal) (m ((c.tc : Thread nD τ).loc main_arg1)))) := by
  show StableHlo.after hostOps1 (W2 m ρ c) (Proc.devRef .tc main_v11) = _
  after_results_simp
  exact W2_v11 m ρ c

theorem W3_v26 : W3 (F := Ideal) m ρ c (Proc.devRef .tc main_v26) = hid1 m c := by
  show StableHlo.after hostOps1 (W2 m ρ c) (Proc.devRef .tc main_v26) = _
  after_results_simp
  exact W2_hid1 m ρ c

theorem W3_v38 : W3 (F := Ideal) m ρ c (Proc.devRef .tc main_v38) = val_main_v49 (F := Ideal) (m ((c.tc : Thread nD τ).loc main_arg5)) := by
  show StableHlo.after hostOps1 (W2 m ρ c) (Proc.devRef .tc main_v38) = _
  after_results_simp
  rw [W2_arg5 m ρ c]
  rfl

theorem W3_arg6 : W3 (F := Ideal) m ρ c (Proc.devRef .tc main_arg6) = (m ((c.tc : Thread nD τ).loc main_arg6)) := by
  show StableHlo.after hostOps1 (W2 m ρ c) (Proc.devRef .tc main_arg6) = _
  after_results_simp
  exact W2_arg6 m ρ c

theorem W3_v40 : W3 (F := Ideal) m ρ c (Proc.devRef .tc main_v40) = val_main_v54 (F := Ideal) (m ((c.tc : Thread nD τ).loc main_arg7)) := by
  show StableHlo.after hostOps1 (W2 m ρ c) (Proc.devRef .tc main_v40) = _
  after_results_simp
  rw [W2_arg7 m ρ c]
  rfl

theorem W3_v42 : W3 (F := Ideal) m ρ c (Proc.devRef .tc main_v42) = val_main_v58 (F := Ideal) (m ((c.tc : Thread nD τ).loc main_arg8)) := by
  show StableHlo.after hostOps1 (W2 m ρ c) (Proc.devRef .tc main_v42) = _
  after_results_simp
  rw [W2_arg8 m ρ c]
  rfl

theorem W3_arg9 : W3 (F := Ideal) m ρ c (Proc.devRef .tc main_arg9) = (m ((c.tc : Thread nD τ).loc main_arg9)) := by
  show StableHlo.after hostOps1 (W2 m ρ c) (Proc.devRef .tc main_arg9) = _
  after_results_simp
  exact W2_arg9 m ρ c

/-! ## On return -/

/-- THE RESULT: the second call's output buffer holds the read-out of the second layer, computed from the second
    neighbour sums, the reciprocal degrees, the first layer's array, the transposed weights and the biases. -/
theorem W4_v43 : W4 (F := Ideal) m ρ c (Proc.devRef .tc main_v43)
    = HeadLayer.G
        (Host.scatterAdd (F := Ideal) (φ := .f32) Cert.ReferenceIdeal.scatter_S100000x64_S1600000x1_S1600000x64_1_0_0_1
          (val_main_v11 (F := Ideal)) (val_main_v12 (F := Ideal) (m ((c.tc : Thread nD τ).loc main_arg1)))
          (Host.gather Cert.ReferenceIdeal.gather_S100000x64_S1600000x1_S1600000x64_1_0_n_n_0_1_164 (hid1 m c)
            (val_main_v9 (F := Ideal) (m ((c.tc : Thread nD τ).loc main_arg1)))))
        (Host.divf (F := Ideal) (φ := .f32) (val_main_v18 (F := Ideal)) (val_main_v19 (F := Ideal) (m ((c.tc : Thread nD τ).loc main_arg1)))) (hid1 m c) (val_main_v49 (F := Ideal) (m ((c.tc : Thread nD τ).loc main_arg5))) (m ((c.tc : Thread nD τ).loc main_arg6)) (val_main_v54 (F := Ideal) (m ((c.tc : Thread nD τ).loc main_arg7)))
        (val_main_v58 (F := Ideal) (m ((c.tc : Thread nD τ).loc main_arg8))) (m ((c.tc : Thread nD τ).loc main_arg9)) :=
  (W4_arr m ρ c 8).trans ((HeadLayer.final (V3 m ρ) c).trans (by
    show HeadLayer.G (W3 (F := Ideal) m ρ c (Proc.devRef .tc main_v36)) (W3 (F := Ideal) m ρ c (Proc.devRef .tc main_v11))
      (W3 (F := Ideal) m ρ c (Proc.devRef .tc main_v26)) (W3 (F := Ideal) m ρ c (Proc.devRef .tc main_v38))
      (W3 (F := Ideal) m ρ c (Proc.devRef .tc main_arg6)) (W3 (F := Ideal) m ρ c (Proc.devRef .tc main_v40))
      (W3 (F := Ideal) m ρ c (Proc.devRef .tc main_v42)) (W3 (F := Ideal) m ρ c (Proc.devRef .tc main_arg9)) = _
    rw [W3_v36 m ρ c, W3_v11 m ρ c, W3_v26 m ρ c, W3_v38 m ρ c, W3_arg6 m ρ c, W3_v40 m ρ c, W3_v42 m ρ c, W3_arg9 m ρ c]))

end Cert.KernelIdeal.HostSecond

end
-- ==== Proof.KernelValue.lean ====
/-
  The idealized kernel program's run, with its result named by the SAME function of the ten arguments as the
  reference's (`RefValue.result`).

  The run leaves the result buffer at the second call's array; that array is the read-out of the second layer over the
  second neighbour sums, the reciprocal degrees and the first layer's array; the first layer's array is the layer over
  the first neighbour sums, the reciprocal degrees and the node features. Every ingredient was stated with the
  reference's stage functions, so what remains is to fold those terms into the reference module's names.
-/
import proofs.«142700_j90829968376535_2_alg».proof.Proof.WholeRun
import proofs.«142700_j90829968376535_2_alg».proof.Proof.HostSecond
import proofs.«142700_j90829968376535_2_alg».proof.Proof.RefValue

set_option maxRecDepth 16384

noncomputable section

namespace Cert.KernelIdeal.KernelValue

open Cert.KernelIdeal Cert.KernelIdeal.Gen Cert.ReferenceIdeal.Read
open Idealize.ShloMosaic Idealize.ShloMosaic.TcCoe Idealize.SL.Sem

variable (m : (ℓ : Loc nD τ sig) → Buf (Elt Ideal) ℓ) (ρ : Dev nD → PrngReg)

/-- The first layer's array is the reference module's first layer of the same arguments. -/
theorem hid1_eq (c : Dev nD) : HostSecond.hid1 m c
    = Cert.ReferenceIdeal.RefValue.hidden1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold HostSecond.hid1 FirstLayer.G Cert.ReferenceIdeal.RefValue.hidden1 Cert.ReferenceIdeal.RefValue.invDeg
  rw [Cert.ReferenceIdeal.RefValue.v13_eq]

/-- The result buffer's final contents are the reference module's result function of the arguments. -/
theorem result_eq (c : Dev nD) : W4 (F := Ideal) m ρ c (Proc.devRef .tc main_v43) = Cert.ReferenceIdeal.RefValue.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (HostSecond.W4_v43 m ρ c).trans ?_
  rw [hid1_eq m c, Cert.ReferenceIdeal.RefValue.agg_fold]
  unfold HeadLayer.G Cert.ReferenceIdeal.RefValue.result Cert.ReferenceIdeal.RefValue.invDeg
  rfl

/-- THE KERNEL'S RUN: every weakly fair execution terminates, nothing faulting, with the result at `RefValue.result`
    of the arguments and the arguments unchanged. -/
theorem run : θ_run defs (onTc (τ := τ) (main (F := Ideal))) ⟨m, fun _ => 0, ρ⟩ (fun r => ∀ c : Dev nD,
      r.2.mem ((c.tc : Thread nD τ).loc main_v43) = Cert.ReferenceIdeal.RefValue.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(h c).1.trans (result_eq m ρ c), (h c).2⟩) (WholeRun.run_named (F := Ideal) m ρ)

end Cert.KernelIdeal.KernelValue

end
-- ==== Proof.lean ====
/-
  Two mean-aggregation graph layers and a linear read-out over 100000 nodes and 1600000 edges: the kernel program
  (host gathers and scatter-adds around two pallas_calls) against the plain reference, equal on the extended reals.

  Both programs take the edge list apart in the same way, wrap negative source indices by the node count, count each
  node's incoming edges by scatter-adding ones, and form each layer's neighbour sums by gathering feature rows at the
  sources and scatter-adding them at the destinations. Those steps are the same operations on the same values in both
  programs and are carried as whole terms. The programs differ in three ways, none of which changes an extended real:
    * the reference divides a neighbour sum by the clamped degree max(c, 1); the kernel multiplies it by the
      reciprocal 1 / max(c, 1) computed once — for a divisor that is at least 1, hence not 0, both are a · d⁻¹;
    * the reference adds the bias before the self term, the kernel after — addition is commutative and associative;
    * the kernel narrows operands for the matrix unit and tiles the node axis (25 blocks of 4000 rows for the first
      layer, 100 blocks of 1000 rows for the second layer fused with the read-out) — a change of format is the
      identity, a row of a tile depends on the same row of its inputs only, and the row blocks cover the arrays.
  No finiteness of the inputs is used: the precondition is never opened.

  `frame_Kernel` and `frame_KernelIdeal` are the generated frames; `frame_ReferenceIdeal` is the reference's
  generated run with the result dropped; `preserves` has no entry; `algebraic` puts the kernel's run (module
  KernelValue) beside the reference's run read back (module RefValue) at the one result function `RefValue.result`.
-/
import proofs.«142700_j90829968376535_2_alg».proof.Defs
import proofs.«142700_j90829968376535_2_alg».proof.Proof.Gen.Kernel
import proofs.«142700_j90829968376535_2_alg».proof.Proof.Gen.Kernel.Skeleton
import proofs.«142700_j90829968376535_2_alg».proof.Proof.Gen.Kernel.Launch
import proofs.«142700_j90829968376535_2_alg».proof.Proof.Gen.Kernel.Points
import proofs.«142700_j90829968376535_2_alg».proof.Proof.Gen.Kernel.Frame
import proofs.«142700_j90829968376535_2_alg».proof.Proof.Gen.KernelIdeal
import proofs.«142700_j90829968376535_2_alg».proof.Proof.Gen.KernelIdeal.Skeleton
import proofs.«142700_j90829968376535_2_alg».proof.Proof.Gen.KernelIdeal.Launch
import proofs.«142700_j90829968376535_2_alg».proof.Proof.Gen.KernelIdeal.Points
import proofs.«142700_j90829968376535_2_alg».proof.Proof.Gen.KernelIdeal.Frame
import proofs.«142700_j90829968376535_2_alg».proof.Proof.Gen.ReferenceIdeal
import proofs.«142700_j90829968376535_2_alg».proof.Proof.Gen.Pre_finite_inputs
import proofs.«142700_j90829968376535_2_alg».proof.Proof.Gen.ReferenceIdeal.Run
import proofs.«142700_j90829968376535_2_alg».proof.Proof.Gen.ReferenceIdeal.Read
import proofs.«142700_j90829968376535_2_alg».proof.Proof.RefValue
import proofs.«142700_j90829968376535_2_alg».proof.Proof.KernelValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both runs end with the result at `RefValue.result` of arguments that agree. -/
theorem algebraic : Cert.algebraic_KernelIdeal_ReferenceIdeal := by
  intro m ρ m' ρ' _ hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v62_eq, Cert.ReferenceIdeal.RefValue.result_eq]
  obtain ⟨e0, e1, e2, e3, e4, e5, e6, e7, e8, e9⟩ := hagree c
  rw [e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
